-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x256 : Shape := ⟨2, ![50000, 256]⟩
abbrev S3x256x256 : Shape := ⟨3, ![3, 256, 256]⟩
abbrev S3x256 : Shape := ⟨2, ![3, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  main_v18

def fn {F : FTy → Type} [FloatOps F] (main_arg0 : IVec S2x800000 32) (main_arg1 : FVec F S50000x256 .f32) (main_arg2 : FVec F S3x256x256 .f32) (main_arg3 : FVec F S3x256x256 .f32) (main_arg4 : FVec F S3x256 .f32) : IVec S_ 1 :=
  let main_v0 : FVec F S50000x256 .f32 := Host.absf main_arg1
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S3x256x256 .f32 := Host.absf main_arg2
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256x256 .f32 := Host.absf main_arg3
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256 .f32 := Host.absf main_arg4
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_v13 main_v16
-- ==== Kernel.lean ====
abbrev S2x800000 : Shape := ⟨2, ![2, 800000]⟩
abbrev S50000x256 : Shape := ⟨2, ![50000, 256]⟩
abbrev S3x256x256 : Shape := ⟨3, ![3, 256, 256]⟩
abbrev S3x256 : Shape := ⟨2, ![3, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2000x256 : Shape := ⟨2, ![2000, 256]⟩
abbrev S50000x768 : Shape := ⟨2, ![50000, 768]⟩

abbrev nBuf : Space → Nat
  | .hbm => 96
  | .vmem => 27
  | .smem => 0
  | _ => 0

abbrev bufTy : (tb : Table) → Fin (tcTables nBuf tb) → BufTy
  | .hbm, ⟨0, _⟩ => ⟨S2x800000, .i32⟩
  | .hbm, ⟨1, _⟩ => ⟨S50000x256, .f32⟩
  | .hbm, ⟨2, _⟩ => ⟨S3x256x256, .f32⟩
  | .hbm, ⟨3, _⟩ => ⟨S3x256x256, .f32⟩
  | .hbm, ⟨4, _⟩ => ⟨S3x256, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x256, .f32⟩
  | .hbm, ⟨35, _⟩ => ⟨S_, .f32⟩
  | .hbm, ⟨36, _⟩ => ⟨S50000x256, .f32⟩
  | .hbm, ⟨37, _⟩ => ⟨S800000x1, .i32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S1x256x256, .f32⟩
  | .hbm, ⟨42, _⟩ => ⟨S256x256, .f32⟩
  | .hbm, ⟨43, _⟩ => ⟨S1x256x256, .f32⟩
  | .hbm, ⟨44, _⟩ => ⟨S256x256, .f32⟩
  | .hbm, ⟨45, _⟩ => ⟨S1x256, .f32⟩
  | .hbm, ⟨46, _⟩ => ⟨S256, .f32⟩
  | .hbm, ⟨47, _⟩ => ⟨S1x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S50000x256, .f32⟩
  | .hbm, ⟨63, _⟩ => ⟨S50000x256, .f32⟩
  | .hbm, ⟨64, _⟩ => ⟨S1x256x256, .f32⟩
  | .hbm, ⟨65, _⟩ => ⟨S256x256, .f32⟩
  | .hbm, ⟨66, _⟩ => ⟨S1x256x256, .f32⟩
  | .hbm, ⟨67, _⟩ => ⟨S256x256, .f32⟩
  | .hbm, ⟨68, _⟩ => ⟨S1x256, .f32⟩
  | .hbm, ⟨69, _⟩ => ⟨S256, .f32⟩
  | .hbm, ⟨70, _⟩ => ⟨S1x256, .f32⟩
  | .hbm, ⟨71, _⟩ => ⟨S50000x256, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x256, .f32⟩
  | .hbm, ⟨81, _⟩ => ⟨S_, .f32⟩
  | .hbm, ⟨82, _⟩ => ⟨S50000x256, .f32⟩
  | .hbm, ⟨83, _⟩ => ⟨S800000x1, .i32⟩
  | .hbm, ⟨84, _⟩ => ⟨S50000x256, .f32⟩
  | .hbm, ⟨85, _⟩ => ⟨S50000x256, .f32⟩
  | .hbm, ⟨86, _⟩ => ⟨S50000x256, .f32⟩
  | .hbm, ⟨87, _⟩ => ⟨S1x256x256, .f32⟩
  | .hbm, ⟨88, _⟩ => ⟨S256x256, .f32⟩
  | .hbm, ⟨89, _⟩ => ⟨S1x256x256, .f32⟩
  | .hbm, ⟨90, _⟩ => ⟨S256x256, .f32⟩
  | .hbm, ⟨91, _⟩ => ⟨S1x256, .f32⟩
  | .hbm, ⟨92, _⟩ => ⟨S256, .f32⟩
  | .hbm, ⟨93, _⟩ => ⟨S1x256, .f32⟩
  | .hbm, ⟨94, _⟩ => ⟨S50000x256, .f32⟩
  | .hbm, ⟨95, _⟩ => ⟨S50000x768, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_9 : Ref sig .tc := ⟨.hbm, 72, rfl⟩
abbrev main_v54 : Ref sig .tc := ⟨.hbm, 73, rfl⟩
abbrev main_v55 : Ref sig .tc := ⟨.hbm, 74, rfl⟩
abbrev main_c_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  concatenates_S50000x256_S50000x256_S50000x256_S50000x768_d1 : Shape.Concatenates [S50000x256, S50000x256, S50000x256] S50000x768 1
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v25) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v65) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S2x800000 : Shape := ⟨2, ![2, 800000]⟩
abbrev S50000x256 : Shape := ⟨2, ![50000, 256]⟩
abbrev S3x256x256 : Shape := ⟨3, ![3, 256, 256]⟩
abbrev S3x256 : Shape := ⟨2, ![3, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S50000x768 : Shape := ⟨2, ![50000, 768]⟩

abbrev nBuf : Space → Nat
  | .hbm => 117
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x256, .f32⟩
  | .hbm, ⟨2, _⟩ => ⟨S3x256x256, .f32⟩
  | .hbm, ⟨3, _⟩ => ⟨S3x256x256, .f32⟩
  | .hbm, ⟨4, _⟩ => ⟨S3x256, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x256, .f32⟩
  | .hbm, ⟨35, _⟩ => ⟨S_, .f32⟩
  | .hbm, ⟨36, _⟩ => ⟨S50000x256, .f32⟩
  | .hbm, ⟨37, _⟩ => ⟨S800000x1, .i32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S1x256x256, .f32⟩
  | .hbm, ⟨42, _⟩ => ⟨S256x256, .f32⟩
  | .hbm, ⟨43, _⟩ => ⟨S50000x256, .f32⟩
  | .hbm, ⟨44, _⟩ => ⟨S1x256x256, .f32⟩
  | .hbm, ⟨45, _⟩ => ⟨S256x256, .f32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x256, .f32⟩
  | .hbm, ⟨66, _⟩ => ⟨S_, .f32⟩
  | .hbm, ⟨67, _⟩ => ⟨S50000x256, .f32⟩
  | .hbm, ⟨68, _⟩ => ⟨S800000x1, .i32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S1x256x256, .f32⟩
  | .hbm, ⟨73, _⟩ => ⟨S256x256, .f32⟩
  | .hbm, ⟨74, _⟩ => ⟨S50000x256, .f32⟩
  | .hbm, ⟨75, _⟩ => ⟨S1x256x256, .f32⟩
  | .hbm, ⟨76, _⟩ => ⟨S256x256, .f32⟩
  | .hbm, ⟨77, _⟩ => ⟨S50000x256, .f32⟩
  | .hbm, ⟨78, _⟩ => ⟨S50000x256, .f32⟩
  | .hbm, ⟨79, _⟩ => ⟨S1x256, .f32⟩
  | .hbm, ⟨80, _⟩ => ⟨S256, .f32⟩
  | .hbm, ⟨81, _⟩ => ⟨S1x256, .f32⟩
  | .hbm, ⟨82, _⟩ => ⟨S50000x256, .f32⟩
  | .hbm, ⟨83, _⟩ => ⟨S50000x256, .f32⟩
  | .hbm, ⟨84, _⟩ => ⟨S50000x256, .f32⟩
  | .hbm, ⟨85, _⟩ => ⟨S_, .f32⟩
  | .hbm, ⟨86, _⟩ => ⟨S50000x256, .f32⟩
  | .hbm, ⟨87, _⟩ => ⟨S50000x256, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x256, .f32⟩
  | .hbm, ⟨97, _⟩ => ⟨S_, .f32⟩
  | .hbm, ⟨98, _⟩ => ⟨S50000x256, .f32⟩
  | .hbm, ⟨99, _⟩ => ⟨S800000x1, .i32⟩
  | .hbm, ⟨100, _⟩ => ⟨S50000x256, .f32⟩
  | .hbm, ⟨101, _⟩ => ⟨S50000x256, .f32⟩
  | .hbm, ⟨102, _⟩ => ⟨S50000x256, .f32⟩
  | .hbm, ⟨103, _⟩ => ⟨S1x256x256, .f32⟩
  | .hbm, ⟨104, _⟩ => ⟨S256x256, .f32⟩
  | .hbm, ⟨105, _⟩ => ⟨S50000x256, .f32⟩
  | .hbm, ⟨106, _⟩ => ⟨S1x256x256, .f32⟩
  | .hbm, ⟨107, _⟩ => ⟨S256x256, .f32⟩
  | .hbm, ⟨108, _⟩ => ⟨S50000x256, .f32⟩
  | .hbm, ⟨109, _⟩ => ⟨S50000x256, .f32⟩
  | .hbm, ⟨110, _⟩ => ⟨S1x256, .f32⟩
  | .hbm, ⟨111, _⟩ => ⟨S256, .f32⟩
  | .hbm, ⟨112, _⟩ => ⟨S1x256, .f32⟩
  | .hbm, ⟨113, _⟩ => ⟨S50000x256, .f32⟩
  | .hbm, ⟨114, _⟩ => ⟨S50000x256, .f32⟩
  | .hbm, ⟨115, _⟩ => ⟨S50000x256, .f32⟩
  | .hbm, ⟨116, _⟩ => ⟨S50000x768, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_call2_cst : Ref sig .tc := ⟨.hbm, 85, rfl⟩
abbrev main_call2_v0 : Ref sig .tc := ⟨.hbm, 86, rfl⟩
abbrev main_v65 : Ref sig .tc := ⟨.hbm, 87, rfl⟩
abbrev main_c_9 : Ref sig .tc := ⟨.hbm, 88, rfl⟩
abbrev main_v66 : Ref sig .tc := ⟨.hbm, 89, rfl⟩
abbrev main_v67 : Ref sig .tc := ⟨.hbm, 90, rfl⟩
abbrev main_c_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_11 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  concatenates_S50000x256_S50000x256_S50000x256_S50000x768_d1 : Shape.Concatenates [S50000x256, S50000x256, S50000x256] S50000x768 1
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.K.Region0.lean ====
/-
  Region 0 of the three: one layer's dense part, 25 row blocks of 2000 nodes.

  At a grid point the pipeline hands the body five whole blocks — 2000 rows of the aggregated features, the same 2000
  rows of the node features, the layer's two 256 x 256 matrices and its bias row — and a sixth buffer for the result.
  The body reads the five, reads the sixth without using it, and overwrites the sixth whole with one value computed from
  the five.  So after the body the five input buffers hold what they held and the output buffer holds that value; this
  holds for any contents `V` of the arrays at the region's entry, and for word-level and exact arithmetic alike.
-/
import proofs.«151666_j82042465288656_1_alg».proof.Proof.Gen.Kernel.Launch
import proofs.«151666_j82042465288656_1_alg».proof.Proof.Gen.Kernel.Skeleton
import proofs.«151666_j82042465288656_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched there or
    kept an earlier fetch: the array is never written and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether the pipeline fetched there or
    kept an earlier fetch: the array is never written and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether the pipeline fetched there or
    kept an earlier fetch: the array is never written and the body leaves the buffer as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether the pipeline fetched there or
    kept an earlier fetch: the array is never written and the body leaves the buffer as it found it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether the pipeline fetched there or
    kept an earlier fetch: the array is never written and the body leaves the buffer as it found it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole 2000 x 256 block, the whole 256 x 256 matrix, the whole bias row: the body's only rectangles. -/
abbrev rBlk0 : Rect S2000x256 := Rect.unit (s := S2000x256) ![0, 0] S2000x256.size inb_S2000x256_S2000x256_0_0
abbrev rMat0 : Rect S256x256 := Rect.unit (s := S256x256) ![0, 0] S256x256.size inb_S256x256_S256x256_0_0
abbrev rRow0 : Rect S1x256 := Rect.unit (s := S1x256) ![0, 0] S1x256.size inb_S1x256_S1x256_0_0

/-- The output buffer after the body, from the five input blocks: its one store, of the body's value. -/
def out0_5 (x0 x1 : Vec F S2000x256 .f32) (x2 x3 : Vec F S256x256 .f32) (x4 : Vec F S1x256 .f32) : Vec F S2000x256 .f32 :=
  View.canon [⟨rBlk0, k0_pay1 (View.ld x0 rBlk0) (View.ld x1 rBlk0) (View.ld x2 rMat0) (View.ld x3 rMat0) (View.ld x4 rRow0)⟩]

/-- That one store is of the whole block, so it covers the buffer. -/
theorem cover0_5 (p0 : Vec F S2000x256 .f32) (y : S2000x256.Idx) :
    ∃ pc ∈ ([⟨rBlk0, p0⟩] : List (View.Piece (Elt F) S2000x256 .f32)), y ∈ pc.1.set :=
  View.cover_of_tiled [⟨rBlk0, p0⟩] S2000x256.size (by rfl) y

set_option maxHeartbeats 4000000 in
/-- The body on whole staging buffers, the inputs' at contents `x0 … x4` and the output's at anything, runs to a state
    where the inputs' hold what they held and the output's holds `out0_5` of them. -/
theorem sound_kernel0 (c : Dev nD) (E : Set ℕ) (i : grid0.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 x1 : Vec F S2000x256 .f32) (x2 x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The pipeline's proof data on core `c`: the arrays as the region finds them; after the body at point `t` each input
    buffer at its block and the output buffer at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the input buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation the pipeline's launch theorem asks, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.K.Region1.lean ====
/-
  Region 1 of the three: one layer's dense part, 25 row blocks of 2000 nodes.

  At a grid point the pipeline hands the body five whole blocks — 2000 rows of the aggregated features, the same 2000
  rows of the node features, the layer's two 256 x 256 matrices and its bias row — and a sixth buffer for the result.
  The body reads the five, reads the sixth without using it, and overwrites the sixth whole with one value computed from
  the five.  So after the body the five input buffers hold what they held and the output buffer holds that value; this
  holds for any contents `V` of the arrays at the region's entry, and for word-level and exact arithmetic alike.
-/
import proofs.«151666_j82042465288656_1_alg».proof.Proof.Gen.Kernel.Launch
import proofs.«151666_j82042465288656_1_alg».proof.Proof.Gen.Kernel.Skeleton
import proofs.«151666_j82042465288656_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched there or
    kept an earlier fetch: the array is never written and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the pipeline fetched there or
    kept an earlier fetch: the array is never written and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the pipeline fetched there or
    kept an earlier fetch: the array is never written and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the pipeline fetched there or
    kept an earlier fetch: the array is never written and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether the pipeline fetched there or
    kept an earlier fetch: the array is never written and the body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole 2000 x 256 block, the whole 256 x 256 matrix, the whole bias row: the body's only rectangles. -/
abbrev rBlk1 : Rect S2000x256 := Rect.unit (s := S2000x256) ![0, 0] S2000x256.size inb_S2000x256_S2000x256_0_0
abbrev rMat1 : Rect S256x256 := Rect.unit (s := S256x256) ![0, 0] S256x256.size inb_S256x256_S256x256_0_0
abbrev rRow1 : Rect S1x256 := Rect.unit (s := S1x256) ![0, 0] S1x256.size inb_S1x256_S1x256_0_0

/-- The output buffer after the body, from the five input blocks: its one store, of the body's value. -/
def out1_5 (x0 x1 : Vec F S2000x256 .f32) (x2 x3 : Vec F S256x256 .f32) (x4 : Vec F S1x256 .f32) : Vec F S2000x256 .f32 :=
  View.canon [⟨rBlk1, k1_pay1 (View.ld x0 rBlk1) (View.ld x1 rBlk1) (View.ld x2 rMat1) (View.ld x3 rMat1) (View.ld x4 rRow1)⟩]

/-- That one store is of the whole block, so it covers the buffer. -/
theorem cover1_5 (p0 : Vec F S2000x256 .f32) (y : S2000x256.Idx) :
    ∃ pc ∈ ([⟨rBlk1, p0⟩] : List (View.Piece (Elt F) S2000x256 .f32)), y ∈ pc.1.set :=
  View.cover_of_tiled [⟨rBlk1, p0⟩] S2000x256.size (by rfl) y

set_option maxHeartbeats 4000000 in
/-- The body on whole staging buffers, the inputs' at contents `x0 … x4` and the output's at anything, runs to a state
    where the inputs' hold what they held and the output's holds `out1_5` of them. -/
theorem sound_kernel1 (c : Dev nD) (E : Set ℕ) (i : grid1.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 x1 : Vec F S2000x256 .f32) (x2 x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the region finds them; after the body at point `t` each input
    buffer at its block and the output buffer at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the input buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation the pipeline's launch theorem asks, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.K.Region2.lean ====
/-
  Region 2 of the three: one layer's dense part, 25 row blocks of 2000 nodes.

  At a grid point the pipeline hands the body five whole blocks — 2000 rows of the aggregated features, the same 2000
  rows of the node features, the layer's two 256 x 256 matrices and its bias row — and a sixth buffer for the result.
  The body reads the five, reads the sixth without using it, and overwrites the sixth whole with one value computed from
  the five.  So after the body the five input buffers hold what they held and the output buffer holds that value; this
  holds for any contents `V` of the arrays at the region's entry, and for word-level and exact arithmetic alike.
-/
import proofs.«151666_j82042465288656_1_alg».proof.Proof.Gen.Kernel.Launch
import proofs.«151666_j82042465288656_1_alg».proof.Proof.Gen.Kernel.Skeleton
import proofs.«151666_j82042465288656_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched there or
    kept an earlier fetch: the array is never written and the body leaves the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether the pipeline fetched there or
    kept an earlier fetch: the array is never written and the body leaves the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether the pipeline fetched there or
    kept an earlier fetch: the array is never written and the body leaves the buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether the pipeline fetched there or
    kept an earlier fetch: the array is never written and the body leaves the buffer as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, whether the pipeline fetched there or
    kept an earlier fetch: the array is never written and the body leaves the buffer as it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole 2000 x 256 block, the whole 256 x 256 matrix, the whole bias row: the body's only rectangles. -/
abbrev rBlk2 : Rect S2000x256 := Rect.unit (s := S2000x256) ![0, 0] S2000x256.size inb_S2000x256_S2000x256_0_0
abbrev rMat2 : Rect S256x256 := Rect.unit (s := S256x256) ![0, 0] S256x256.size inb_S256x256_S256x256_0_0
abbrev rRow2 : Rect S1x256 := Rect.unit (s := S1x256) ![0, 0] S1x256.size inb_S1x256_S1x256_0_0

/-- The output buffer after the body, from the five input blocks: its one store, of the body's value. -/
def out2_5 (x0 x1 : Vec F S2000x256 .f32) (x2 x3 : Vec F S256x256 .f32) (x4 : Vec F S1x256 .f32) : Vec F S2000x256 .f32 :=
  View.canon [⟨rBlk2, k2_pay1 (View.ld x0 rBlk2) (View.ld x1 rBlk2) (View.ld x2 rMat2) (View.ld x3 rMat2) (View.ld x4 rRow2)⟩]

/-- That one store is of the whole block, so it covers the buffer. -/
theorem cover2_5 (p0 : Vec F S2000x256 .f32) (y : S2000x256.Idx) :
    ∃ pc ∈ ([⟨rBlk2, p0⟩] : List (View.Piece (Elt F) S2000x256 .f32)), y ∈ pc.1.set :=
  View.cover_of_tiled [⟨rBlk2, p0⟩] S2000x256.size (by rfl) y

set_option maxHeartbeats 4000000 in
/-- The body on whole staging buffers, the inputs' at contents `x0 … x4` and the output's at anything, runs to a state
    where the inputs' hold what they held and the output's holds `out2_5` of them. -/
theorem sound_kernel2 (c : Dev nD) (E : Set ℕ) (i : grid2.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 x1 : Vec F S2000x256 .f32) (x2 x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__sage_kernel i arg1 harg1 arg2 harg2 arg3 harg3 arg4 harg4 arg5 harg5 arg6 harg6) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The pipeline's proof data on core `c`: the arrays as the region finds them; after the body at point `t` each input
    buffer at its block and the output buffer at `out2_5` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4000000 in
/-- The body at any point: the input buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation the pipeline's launch theorem asks, at every point. -/
theorem body_obligation2 (c : Dev nD) : BodyObligation (dat2 (F := F) V c) (defs₀ (F := F)) Variants.none () Set.univ := fun t => by
  rw [bigSep_W2, bigSep_W2]
  exact sound_body2 V c t

end Cert.Kernel.Run

end
-- ==== Proof.K.Run.lean ====
/-
  The whole program as a run: three stretches of host operations, the first layer's region, a stretch, the second
  layer's region, a stretch, the third layer's region, and the final concatenation.

  The contents of the TensorCore's unscoped buffers are followed through the program as a fold from the launch memory:
  a stretch of host operations applies its operations to them; a region replaces its six arrays by what its pipeline
  leaves (the five inputs unchanged, the output at its write-backs) and touches nothing else.  Every weakly fair
  execution terminates, nothing faulting, with every unscoped buffer at the last contents of this fold — from which the
  result array and the unchanged arguments are read off.  For any arithmetic `F`.
-/
import proofs.«151666_j82042465288656_1_alg».proof.Proof.K.Region0
import proofs.«151666_j82042465288656_1_alg».proof.Proof.K.Region1
import proofs.«151666_j82042465288656_1_alg».proof.Proof.K.Region2
import proofs.«151666_j82042465288656_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the edge list is split and the in-degrees counted. -/
abbrev W1 : Dev nD → Valuation τ sig (Elt F) := fun c => StableHlo.after hostOps0 (W0 m ρ c)
/-- After the reciprocal in-degree is chosen. -/
abbrev W2 : Dev nD → Valuation τ sig (Elt F) := fun c => StableHlo.after hostOps0_1 (W1 m ρ c)
/-- After the first aggregation and the first layer's weights are cut out: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its six arrays at what the pipeline leaves — the inputs as entered, the output's write-backs folded —
    and every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the second aggregation and the second layer's weights: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: its six arrays at what the pipeline leaves — the inputs as entered, the output's write-backs folded —
    and every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the third aggregation and the third layer's weights: region 2's entry. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- At region 2's exit: its six arrays at what the pipeline leaves — the inputs as entered, the output's write-backs folded —
    and every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the three layers' outputs are put side by side: the end. -/
abbrev W9 : Dev nD → Valuation τ sig (Elt F) := fun c => StableHlo.after hostOps3 (W8 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The regions as segments -/

-- a library lemma stated over the pinned configuration unifies with the printed one only when unification may unfold plain
-- definitions in a metavariable's type
set_option backward.isDefEq.respectTransparency.types false in
/-- Region 0 over the thread state: entered with every unscoped buffer at `W3`, left with them at `W4`.  Its six
    arrays are split out of the unscoped buffers at entry and put back at exit, the outputs' at what the write-backs
    leave; the generator register goes into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered with every unscoped buffer at `W5`, left with them at `W6`.  Its six
    arrays are split out of the unscoped buffers at entry and put back at exit, the outputs' at what the write-backs
    leave; the generator register goes into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state: entered with every unscoped buffer at `W7`, left with them at `W8`.  Its six
    arrays are split out of the unscoped buffers at entry and put back at exit, the outputs' at what the write-backs
    leave; the generator register goes into the pipeline's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]

theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN: from any memory with zero counters every weakly fair execution of the program on the TensorCores terminates,
    nothing faulting, and every final state has every unscoped buffer at the last contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun c => by
        -- the last stretch leaves the buffers beside (the register beside what is owed); the launch wants (the buffers beside
        -- the register) beside what is owed
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Run

end
-- ==== Proof.K.Args.lean ====
/-
  What the run leaves in the argument arrays and in the result array.

  An array that no host operation writes and no region stages holds at the end what it held at launch: every stretch
  of host operations leaves it alone, and a region changes only its own six arrays.  The node features are staged by the
  first region, but as an input, and an input window's array is never written back.  So the five arguments end as
  launched, and the result array ends at the last contents of the fold.
-/
import proofs.«151666_j82042465288656_1_alg».proof.Proof.K.Run

noncomputable section

namespace Cert.Kernel.Run

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- An array a region only reads is left as the region found it. -/
theorem W4_keep (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
theorem W6_keep (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
theorem W8_keep (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))

/-- The contents of an array that nothing before the first region writes, at the first region's entry. -/
theorem W3_untouched (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (StableHlo.after_of_writes_sub hostOps0_2 (W2 m ρ c) hostOps0_2_writes h2).trans
    ((StableHlo.after_of_writes_sub hostOps0_1 (W1 m ρ c) hostOps0_1_writes h1).trans
      ((StableHlo.after_of_writes_sub hostOps0 (W0 m ρ c) hostOps0_writes h0).trans rfl))

/-- From the first region's exit to the end, an array that no later stretch writes and no later region stages. -/
theorem W9_of_W4 (c : Dev nD) (r : Ref sig .tc) (h4 : r ∉ hostOps1_W) (h5 : ∀ w, Pipeline.arrRef spec1 w ≠ r)
    (h6 : r ∉ hostOps2_W) (h7 : ∀ w, Pipeline.arrRef spec2 w ≠ r) (h8 : r ∉ hostOps3_W) :
    W9 m ρ c (Proc.devRef .tc r) = W4 m ρ c (Proc.devRef .tc r) :=
  (StableHlo.after_of_writes_sub hostOps3 (W8 m ρ c) hostOps3_writes h8).trans
    ((W8_of_ne m ρ c r h7).trans
      ((StableHlo.after_of_writes_sub hostOps2 (W6 m ρ c) hostOps2_writes h6).trans
        ((W6_of_ne m ρ c r h5).trans
          (StableHlo.after_of_writes_sub hostOps1 (W4 m ρ c) hostOps1_writes h4))))

/-- An array nothing writes and no region stages ends as launched. -/
theorem W9_untouched (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r)
    (h6 : r ∉ hostOps2_W) (h7 : ∀ w, Pipeline.arrRef spec2 w ≠ r) (h8 : r ∉ hostOps3_W) :
    W9 m ρ c (Proc.devRef .tc r) = m ((c : Thread nD τ).loc r) :=
  (W9_of_W4 m ρ c r h4 h5 h6 h7 h8).trans ((W4_of_ne m ρ c r h3).trans (W3_untouched m ρ c r h0 h1 h2))

theorem W9_main_arg0 (c : Dev nD) : W9 m ρ c (Proc.devRef .tc main_arg0) = m ((c : Thread nD τ).loc main_arg0) :=
  W9_untouched m ρ c main_arg0 (by decide) (by decide) (by decide) (by decide) (by decide) (by decide) (by decide) (by decide) (by decide)
/-- The node features: the first region's second input window. -/
theorem W9_main_arg1 (c : Dev nD) : W9 m ρ c (Proc.devRef .tc main_arg1) = m ((c : Thread nD τ).loc main_arg1) :=
  (W9_of_W4 m ρ c main_arg1 (by decide) (by decide) (by decide) (by decide) (by decide)).trans
    ((W4_keep m ρ c 1 rfl).trans (W3_untouched m ρ c main_arg1 (by decide) (by decide) (by decide)))
theorem W9_main_arg2 (c : Dev nD) : W9 m ρ c (Proc.devRef .tc main_arg2) = m ((c : Thread nD τ).loc main_arg2) :=
  W9_untouched m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_untouched m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_untouched m ρ c main_arg4 (by decide) (by decide) (by decide) (by decide) (by decide) (by decide) (by decide) (by decide) (by decide)

/-- THE RUN, READ: the result array at the last contents of the fold, the five arguments as launched. -/
theorem run_result : θ_run defs (onTc (τ := τ) (main (F := F))) ⟨m, fun _ => 0, ρ⟩ (fun r => ∀ c : Dev nD,
      r.2.mem ((c.tc : Thread nD τ).loc main_v74) = W9 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v74 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c)⟩) (run_all m ρ)

/-- THE FRAME: every weakly fair execution terminates, nothing faulting, the five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ)

end Cert.Kernel.Run

end
-- ==== Proof.KI.Region0.lean ====
/-
  Region 0 of the three: one layer's dense part, 25 row blocks of 2000 nodes.

  At a grid point the pipeline hands the body five whole blocks — 2000 rows of the aggregated features, the same 2000
  rows of the node features, the layer's two 256 x 256 matrices and its bias row — and a sixth buffer for the result.
  The body reads the five, reads the sixth without using it, and overwrites the sixth whole with one value computed from
  the five.  So after the body the five input buffers hold what they held and the output buffer holds that value; this
  holds for any contents `V` of the arrays at the region's entry, and for word-level and exact arithmetic alike.
-/
import proofs.«151666_j82042465288656_1_alg».proof.Proof.Gen.KernelIdeal.Launch
import proofs.«151666_j82042465288656_1_alg».proof.Proof.Gen.KernelIdeal.Skeleton
import proofs.«151666_j82042465288656_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched there or
    kept an earlier fetch: the array is never written and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether the pipeline fetched there or
    kept an earlier fetch: the array is never written and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether the pipeline fetched there or
    kept an earlier fetch: the array is never written and the body leaves the buffer as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether the pipeline fetched there or
    kept an earlier fetch: the array is never written and the body leaves the buffer as it found it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether the pipeline fetched there or
    kept an earlier fetch: the array is never written and the body leaves the buffer as it found it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole 2000 x 256 block, the whole 256 x 256 matrix, the whole bias row: the body's only rectangles. -/
abbrev rBlk0 : Rect S2000x256 := Rect.unit (s := S2000x256) ![0, 0] S2000x256.size inb_S2000x256_S2000x256_0_0
abbrev rMat0 : Rect S256x256 := Rect.unit (s := S256x256) ![0, 0] S256x256.size inb_S256x256_S256x256_0_0
abbrev rRow0 : Rect S1x256 := Rect.unit (s := S1x256) ![0, 0] S1x256.size inb_S1x256_S1x256_0_0

/-- The output buffer after the body, from the five input blocks: its one store, of the body's value. -/
def out0_5 (x0 x1 : Vec F S2000x256 .f32) (x2 x3 : Vec F S256x256 .f32) (x4 : Vec F S1x256 .f32) : Vec F S2000x256 .f32 :=
  View.canon [⟨rBlk0, k0_pay1 (View.ld x0 rBlk0) (View.ld x1 rBlk0) (View.ld x2 rMat0) (View.ld x3 rMat0) (View.ld x4 rRow0)⟩]

/-- That one store is of the whole block, so it covers the buffer. -/
theorem cover0_5 (p0 : Vec F S2000x256 .f32) (y : S2000x256.Idx) :
    ∃ pc ∈ ([⟨rBlk0, p0⟩] : List (View.Piece (Elt F) S2000x256 .f32)), y ∈ pc.1.set :=
  View.cover_of_tiled [⟨rBlk0, p0⟩] S2000x256.size (by rfl) y

set_option maxHeartbeats 4000000 in
/-- The body on whole staging buffers, the inputs' at contents `x0 … x4` and the output's at anything, runs to a state
    where the inputs' hold what they held and the output's holds `out0_5` of them. -/
theorem sound_kernel0 (c : Dev nD) (E : Set ℕ) (i : grid0.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 x1 : Vec F S2000x256 .f32) (x2 x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The pipeline's proof data on core `c`: the arrays as the region finds them; after the body at point `t` each input
    buffer at its block and the output buffer at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the input buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation the pipeline's launch theorem asks, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.KI.Region1.lean ====
/-
  Region 1 of the three: one layer's dense part, 25 row blocks of 2000 nodes.

  At a grid point the pipeline hands the body five whole blocks — 2000 rows of the aggregated features, the same 2000
  rows of the node features, the layer's two 256 x 256 matrices and its bias row — and a sixth buffer for the result.
  The body reads the five, reads the sixth without using it, and overwrites the sixth whole with one value computed from
  the five.  So after the body the five input buffers hold what they held and the output buffer holds that value; this
  holds for any contents `V` of the arrays at the region's entry, and for word-level and exact arithmetic alike.
-/
import proofs.«151666_j82042465288656_1_alg».proof.Proof.Gen.KernelIdeal.Launch
import proofs.«151666_j82042465288656_1_alg».proof.Proof.Gen.KernelIdeal.Skeleton
import proofs.«151666_j82042465288656_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched there or
    kept an earlier fetch: the array is never written and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the pipeline fetched there or
    kept an earlier fetch: the array is never written and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the pipeline fetched there or
    kept an earlier fetch: the array is never written and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the pipeline fetched there or
    kept an earlier fetch: the array is never written and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether the pipeline fetched there or
    kept an earlier fetch: the array is never written and the body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole 2000 x 256 block, the whole 256 x 256 matrix, the whole bias row: the body's only rectangles. -/
abbrev rBlk1 : Rect S2000x256 := Rect.unit (s := S2000x256) ![0, 0] S2000x256.size inb_S2000x256_S2000x256_0_0
abbrev rMat1 : Rect S256x256 := Rect.unit (s := S256x256) ![0, 0] S256x256.size inb_S256x256_S256x256_0_0
abbrev rRow1 : Rect S1x256 := Rect.unit (s := S1x256) ![0, 0] S1x256.size inb_S1x256_S1x256_0_0

/-- The output buffer after the body, from the five input blocks: its one store, of the body's value. -/
def out1_5 (x0 x1 : Vec F S2000x256 .f32) (x2 x3 : Vec F S256x256 .f32) (x4 : Vec F S1x256 .f32) : Vec F S2000x256 .f32 :=
  View.canon [⟨rBlk1, k1_pay1 (View.ld x0 rBlk1) (View.ld x1 rBlk1) (View.ld x2 rMat1) (View.ld x3 rMat1) (View.ld x4 rRow1)⟩]

/-- That one store is of the whole block, so it covers the buffer. -/
theorem cover1_5 (p0 : Vec F S2000x256 .f32) (y : S2000x256.Idx) :
    ∃ pc ∈ ([⟨rBlk1, p0⟩] : List (View.Piece (Elt F) S2000x256 .f32)), y ∈ pc.1.set :=
  View.cover_of_tiled [⟨rBlk1, p0⟩] S2000x256.size (by rfl) y

set_option maxHeartbeats 4000000 in
/-- The body on whole staging buffers, the inputs' at contents `x0 … x4` and the output's at anything, runs to a state
    where the inputs' hold what they held and the output's holds `out1_5` of them. -/
theorem sound_kernel1 (c : Dev nD) (E : Set ℕ) (i : grid1.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 x1 : Vec F S2000x256 .f32) (x2 x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the region finds them; after the body at point `t` each input
    buffer at its block and the output buffer at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the input buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation the pipeline's launch theorem asks, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.KI.Region2.lean ====
/-
  Region 2 of the three: one layer's dense part, 25 row blocks of 2000 nodes.

  At a grid point the pipeline hands the body five whole blocks — 2000 rows of the aggregated features, the same 2000
  rows of the node features, the layer's two 256 x 256 matrices and its bias row — and a sixth buffer for the result.
  The body reads the five, reads the sixth without using it, and overwrites the sixth whole with one value computed from
  the five.  So after the body the five input buffers hold what they held and the output buffer holds that value; this
  holds for any contents `V` of the arrays at the region's entry, and for word-level and exact arithmetic alike.
-/
import proofs.«151666_j82042465288656_1_alg».proof.Proof.Gen.KernelIdeal.Launch
import proofs.«151666_j82042465288656_1_alg».proof.Proof.Gen.KernelIdeal.Skeleton
import proofs.«151666_j82042465288656_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched there or
    kept an earlier fetch: the array is never written and the body leaves the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether the pipeline fetched there or
    kept an earlier fetch: the array is never written and the body leaves the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether the pipeline fetched there or
    kept an earlier fetch: the array is never written and the body leaves the buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether the pipeline fetched there or
    kept an earlier fetch: the array is never written and the body leaves the buffer as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, whether the pipeline fetched there or
    kept an earlier fetch: the array is never written and the body leaves the buffer as it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole 2000 x 256 block, the whole 256 x 256 matrix, the whole bias row: the body's only rectangles. -/
abbrev rBlk2 : Rect S2000x256 := Rect.unit (s := S2000x256) ![0, 0] S2000x256.size inb_S2000x256_S2000x256_0_0
abbrev rMat2 : Rect S256x256 := Rect.unit (s := S256x256) ![0, 0] S256x256.size inb_S256x256_S256x256_0_0
abbrev rRow2 : Rect S1x256 := Rect.unit (s := S1x256) ![0, 0] S1x256.size inb_S1x256_S1x256_0_0

/-- The output buffer after the body, from the five input blocks: its one store, of the body's value. -/
def out2_5 (x0 x1 : Vec F S2000x256 .f32) (x2 x3 : Vec F S256x256 .f32) (x4 : Vec F S1x256 .f32) : Vec F S2000x256 .f32 :=
  View.canon [⟨rBlk2, k2_pay1 (View.ld x0 rBlk2) (View.ld x1 rBlk2) (View.ld x2 rMat2) (View.ld x3 rMat2) (View.ld x4 rRow2)⟩]

/-- That one store is of the whole block, so it covers the buffer. -/
theorem cover2_5 (p0 : Vec F S2000x256 .f32) (y : S2000x256.Idx) :
    ∃ pc ∈ ([⟨rBlk2, p0⟩] : List (View.Piece (Elt F) S2000x256 .f32)), y ∈ pc.1.set :=
  View.cover_of_tiled [⟨rBlk2, p0⟩] S2000x256.size (by rfl) y

set_option maxHeartbeats 4000000 in
/-- The body on whole staging buffers, the inputs' at contents `x0 … x4` and the output's at anything, runs to a state
    where the inputs' hold what they held and the output's holds `out2_5` of them. -/
theorem sound_kernel2 (c : Dev nD) (E : Set ℕ) (i : grid2.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 x1 : Vec F S2000x256 .f32) (x2 x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__sage_kernel i arg1 harg1 arg2 harg2 arg3 harg3 arg4 harg4 arg5 harg5 arg6 harg6) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The pipeline's proof data on core `c`: the arrays as the region finds them; after the body at point `t` each input
    buffer at its block and the output buffer at `out2_5` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4000000 in
/-- The body at any point: the input buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation the pipeline's launch theorem asks, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Run

end
-- ==== Proof.KI.Run.lean ====
/-
  The whole program as a run: three stretches of host operations, the first layer's region, a stretch, the second
  layer's region, a stretch, the third layer's region, and the final concatenation.

  The contents of the TensorCore's unscoped buffers are followed through the program as a fold from the launch memory:
  a stretch of host operations applies its operations to them; a region replaces its six arrays by what its pipeline
  leaves (the five inputs unchanged, the output at its write-backs) and touches nothing else.  Every weakly fair
  execution terminates, nothing faulting, with every unscoped buffer at the last contents of this fold — from which the
  result array and the unchanged arguments are read off.  For any arithmetic `F`.
-/
import proofs.«151666_j82042465288656_1_alg».proof.Proof.KI.Region0
import proofs.«151666_j82042465288656_1_alg».proof.Proof.KI.Region1
import proofs.«151666_j82042465288656_1_alg».proof.Proof.KI.Region2
import proofs.«151666_j82042465288656_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the edge list is split and the in-degrees counted. -/
abbrev W1 : Dev nD → Valuation τ sig (Elt F) := fun c => StableHlo.after hostOps0 (W0 m ρ c)
/-- After the reciprocal in-degree is chosen. -/
abbrev W2 : Dev nD → Valuation τ sig (Elt F) := fun c => StableHlo.after hostOps0_1 (W1 m ρ c)
/-- After the first aggregation and the first layer's weights are cut out: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its six arrays at what the pipeline leaves — the inputs as entered, the output's write-backs folded —
    and every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the second aggregation and the second layer's weights: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: its six arrays at what the pipeline leaves — the inputs as entered, the output's write-backs folded —
    and every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the third aggregation and the third layer's weights: region 2's entry. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- At region 2's exit: its six arrays at what the pipeline leaves — the inputs as entered, the output's write-backs folded —
    and every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the three layers' outputs are put side by side: the end. -/
abbrev W9 : Dev nD → Valuation τ sig (Elt F) := fun c => StableHlo.after hostOps3 (W8 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The regions as segments -/

-- a library lemma stated over the pinned configuration unifies with the printed one only when unification may unfold plain
-- definitions in a metavariable's type
set_option backward.isDefEq.respectTransparency.types false in
/-- Region 0 over the thread state: entered with every unscoped buffer at `W3`, left with them at `W4`.  Its six
    arrays are split out of the unscoped buffers at entry and put back at exit, the outputs' at what the write-backs
    leave; the generator register goes into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered with every unscoped buffer at `W5`, left with them at `W6`.  Its six
    arrays are split out of the unscoped buffers at entry and put back at exit, the outputs' at what the write-backs
    leave; the generator register goes into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state: entered with every unscoped buffer at `W7`, left with them at `W8`.  Its six
    arrays are split out of the unscoped buffers at entry and put back at exit, the outputs' at what the write-backs
    leave; the generator register goes into the pipeline's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]

theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN: from any memory with zero counters every weakly fair execution of the program on the TensorCores terminates,
    nothing faulting, and every final state has every unscoped buffer at the last contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun c => by
        -- the last stretch leaves the buffers beside (the register beside what is owed); the launch wants (the buffers beside
        -- the register) beside what is owed
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Run

end
-- ==== Proof.KI.Args.lean ====
/-
  What the run leaves in the argument arrays and in the result array.

  An array that no host operation writes and no region stages holds at the end what it held at launch: every stretch
  of host operations leaves it alone, and a region changes only its own six arrays.  The node features are staged by the
  first region, but as an input, and an input window's array is never written back.  So the five arguments end as
  launched, and the result array ends at the last contents of the fold.
-/
import proofs.«151666_j82042465288656_1_alg».proof.Proof.KI.Run

noncomputable section

namespace Cert.KernelIdeal.Run

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- An array a region only reads is left as the region found it. -/
theorem W4_keep (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
theorem W6_keep (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
theorem W8_keep (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))

/-- The contents of an array that nothing before the first region writes, at the first region's entry. -/
theorem W3_untouched (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (StableHlo.after_of_writes_sub hostOps0_2 (W2 m ρ c) hostOps0_2_writes h2).trans
    ((StableHlo.after_of_writes_sub hostOps0_1 (W1 m ρ c) hostOps0_1_writes h1).trans
      ((StableHlo.after_of_writes_sub hostOps0 (W0 m ρ c) hostOps0_writes h0).trans rfl))

/-- From the first region's exit to the end, an array that no later stretch writes and no later region stages. -/
theorem W9_of_W4 (c : Dev nD) (r : Ref sig .tc) (h4 : r ∉ hostOps1_W) (h5 : ∀ w, Pipeline.arrRef spec1 w ≠ r)
    (h6 : r ∉ hostOps2_W) (h7 : ∀ w, Pipeline.arrRef spec2 w ≠ r) (h8 : r ∉ hostOps3_W) :
    W9 m ρ c (Proc.devRef .tc r) = W4 m ρ c (Proc.devRef .tc r) :=
  (StableHlo.after_of_writes_sub hostOps3 (W8 m ρ c) hostOps3_writes h8).trans
    ((W8_of_ne m ρ c r h7).trans
      ((StableHlo.after_of_writes_sub hostOps2 (W6 m ρ c) hostOps2_writes h6).trans
        ((W6_of_ne m ρ c r h5).trans
          (StableHlo.after_of_writes_sub hostOps1 (W4 m ρ c) hostOps1_writes h4))))

/-- An array nothing writes and no region stages ends as launched. -/
theorem W9_untouched (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r)
    (h6 : r ∉ hostOps2_W) (h7 : ∀ w, Pipeline.arrRef spec2 w ≠ r) (h8 : r ∉ hostOps3_W) :
    W9 m ρ c (Proc.devRef .tc r) = m ((c : Thread nD τ).loc r) :=
  (W9_of_W4 m ρ c r h4 h5 h6 h7 h8).trans ((W4_of_ne m ρ c r h3).trans (W3_untouched m ρ c r h0 h1 h2))

theorem W9_main_arg0 (c : Dev nD) : W9 m ρ c (Proc.devRef .tc main_arg0) = m ((c : Thread nD τ).loc main_arg0) :=
  W9_untouched m ρ c main_arg0 (by decide) (by decide) (by decide) (by decide) (by decide) (by decide) (by decide) (by decide) (by decide)
/-- The node features: the first region's second input window. -/
theorem W9_main_arg1 (c : Dev nD) : W9 m ρ c (Proc.devRef .tc main_arg1) = m ((c : Thread nD τ).loc main_arg1) :=
  (W9_of_W4 m ρ c main_arg1 (by decide) (by decide) (by decide) (by decide) (by decide)).trans
    ((W4_keep m ρ c 1 rfl).trans (W3_untouched m ρ c main_arg1 (by decide) (by decide) (by decide)))
theorem W9_main_arg2 (c : Dev nD) : W9 m ρ c (Proc.devRef .tc main_arg2) = m ((c : Thread nD τ).loc main_arg2) :=
  W9_untouched m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_untouched m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_untouched m ρ c main_arg4 (by decide) (by decide) (by decide) (by decide) (by decide) (by decide) (by decide) (by decide) (by decide)

/-- THE RUN, READ: the result array at the last contents of the fold, the five arguments as launched. -/
theorem run_result : θ_run defs (onTc (τ := τ) (main (F := F))) ⟨m, fun _ => 0, ρ⟩ (fun r => ∀ c : Dev nD,
      r.2.mem ((c.tc : Thread nD τ).loc main_v74) = W9 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v74 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c)⟩) (run_all m ρ)

/-- THE FRAME: every weakly fair execution terminates, nothing faulting, the five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ)

end Cert.KernelIdeal.Run

end
-- ==== Proof.Spec.lean ====
/-
  The function both programs compute, written once over whole arrays.

  A graph with 800000 directed edges (row 0 of the edge list: sources, row 1: targets) on 50000 nodes, each node
  carrying 256 features.  One aggregation step sends every node the sum of the features of the sources of its incoming
  edges, scaled by the reciprocal of its in-degree (0 for a node with no incoming edge); a source index below zero is
  read 50000 higher, as array indexing does.  One layer maps node features x and their aggregate a to
      (a · Wl + x · Wr) + b + x,
  the bias b added to every row, and the first two of the three layers clamp that at zero from below.  The result is the
  three layers' outputs side by side, 768 columns.  Every operation is spelt as the host program spells it, so that the
  host program's composed term is this function by unfolding.
-/
import proofs.«151666_j82042465288656_1_alg».proof.ReferenceIdeal

noncomputable section

namespace Cert.Sage

open Idealize.ShloMosaic
open Cert.ReferenceIdeal Cert.ReferenceIdeal.Facts₀ Cert.ReferenceIdeal.Facts

variable {F : FTy → Type} [FloatOps F] [Cert.ReferenceIdeal.Facts]

/-- The edge list, the node features, a stack of three weight matrices, the three bias rows. -/
abbrev Edges (F : FTy → Type) [FloatOps F] := (⟨S2x800000, .i32⟩ : BufTy).Contents (Elt F)
abbrev Feat (F : FTy → Type) [FloatOps F] := (⟨S50000x256, .f32⟩ : BufTy).Contents (Elt F)
abbrev Weights (F : FTy → Type) [FloatOps F] := (⟨S3x256x256, .f32⟩ : BufTy).Contents (Elt F)
abbrev Biases (F : FTy → Type) [FloatOps F] := (⟨S3x256, .f32⟩ : BufTy).Contents (Elt F)
abbrev Mat (F : FTy → Type) [FloatOps F] := (⟨S256x256, .f32⟩ : BufTy).Contents (Elt F)
abbrev Row (F : FTy → Type) [FloatOps F] := (⟨S256, .f32⟩ : BufTy).Contents (Elt F)

/-- The edges' sources. -/
def srcRow (e : Edges F) : (⟨S800000, .i32⟩ : BufTy).Contents (Elt F) :=
  shapeCast _ (extractStridedSlice S1x800000 ![0, 0] e slices_S2x800000_S1x800000_0_0) shapeCasts_S1x800000_S800000

/-- The edges' targets. -/
def tgtRow (e : Edges F) : (⟨S800000, .i32⟩ : BufTy).Contents (Elt F) :=
  shapeCast _ (extractStridedSlice S1x800000 ![1, 0] e slices_S2x800000_S1x800000_1_0) shapeCasts_S1x800000_S800000

/-- The targets as one index column. -/
def tgtIdx (e : Edges F) : (⟨S800000x1, .i32⟩ : BufTy).Contents (Elt F) :=
  broadcastInDim S800000x1 ![0] bcast_S800000_S800000x1_0 (tgtRow e)

/-- The sources as one index column, a negative source read 50000 higher. -/
def srcIdx (e : Edges F) : (⟨S800000x1, .i32⟩ : BufTy).Contents (Elt F) :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32))) (srcRow e))

/-- Every node's in-degree: one added at its target for every edge. -/
def degree (e : Edges F) : (⟨S50000, .f32⟩ : BufTy).Contents (Elt F) :=
  Host.scatterAdd scatter_S50000_S800000x1_S800000_n_0_0_1
    (broadcastInDim S50000 ![] bcast_S_S50000 (constant S_ .f32 0x00000000#32)) (tgtIdx e)
    (broadcastInDim S800000 ![] bcast_S_S800000 (constant S_ .f32 0x3F800000#32))

/-- The reciprocal in-degree as a column, 0 where no edge arrives. -/
def invDeg (e : Edges F) : (⟨S50000x1, .f32⟩ : BufTy).Contents (Elt F) :=
  broadcastInDim S50000x1 ![0] bcast_S50000_S50000x1_0
    (select (cmpf .ogt (degree e) (broadcastInDim S50000 ![] bcast_S_S50000 (constant S_ .f32 0x00000000#32)))
      (Host.divf (broadcastInDim S50000 ![] bcast_S_S50000 (constant S_ .f32 0x3F800000#32)) (degree e))
      (broadcastInDim S50000 ![] bcast_S_S50000 (id (constant S_ .f32 0x00000000#32))))

/-- One aggregation step from the edges' sources and targets and a scaling column: the sources' features (a negative
    source read 50000 higher) summed at the targets, every row scaled by the column's entry. -/
def aggOf (src tgt : (⟨S800000, .i32⟩ : BufTy).Contents (Elt F)) (col : (⟨S50000x1, .f32⟩ : BufTy).Contents (Elt F)) (x : Feat F) : Feat F :=
  mulf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 tgt)
      (Host.gather gather_S50000x256_S800000x1_S800000x256_1_0_n_n_0_1_1256 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x256 ![0, 1] bcast_S50000x1_S50000x256_0_1 col)

/-- One aggregation step over the edge list: scaled by the reciprocal in-degree. -/
def agg (e : Edges F) (x : Feat F) : Feat F := aggOf (srcRow e) (tgtRow e) (invDeg e) x

/-- Layer 0's, 1's and 2's matrix out of a stack of three. -/
def mat0 (w : Weights F) : Mat F :=
  shapeCast _ (extractStridedSlice S1x256x256 ![0, 0, 0] w slices_S3x256x256_S1x256x256_0_0_0) shapeCasts_S1x256x256_S256x256
def mat1 (w : Weights F) : Mat F :=
  shapeCast _ (extractStridedSlice S1x256x256 ![1, 0, 0] w slices_S3x256x256_S1x256x256_1_0_0) shapeCasts_S1x256x256_S256x256
def mat2 (w : Weights F) : Mat F :=
  shapeCast _ (extractStridedSlice S1x256x256 ![2, 0, 0] w slices_S3x256x256_S1x256x256_2_0_0) shapeCasts_S1x256x256_S256x256

/-- Layer 0's, 1's and 2's bias row. -/
def bias0 (b : Biases F) : Row F :=
  shapeCast _ (extractStridedSlice S1x256 ![0, 0] b slices_S3x256_S1x256_0_0) shapeCasts_S1x256_S256
def bias1 (b : Biases F) : Row F :=
  shapeCast _ (extractStridedSlice S1x256 ![1, 0] b slices_S3x256_S1x256_1_0) shapeCasts_S1x256_S256
def bias2 (b : Biases F) : Row F :=
  shapeCast _ (extractStridedSlice S1x256 ![2, 0] b slices_S3x256_S1x256_2_0) shapeCasts_S1x256_S256

/-- One layer before the clamp: (a · wl + x · wr) + b + x, the bias row added to every row. -/
def layerLin (a x : Feat F) (wl wr : Mat F) (b : Row F) : Feat F :=
  addf
    (addf
      (addf (Host.dotGeneral dot_S50000x256_S256x256_S50000x256_1_0_0_1_n_n none a wl)
        (Host.dotGeneral dot_S50000x256_S256x256_S50000x256_1_0_0_1_n_n none x wr))
      (broadcastInDim S50000x256 ![0, 1] bcast_S1x256_S50000x256_0_1 (broadcastInDim S1x256 ![1] bcast_S256_S1x256_1 b)))
    x

/-- One layer with the clamp at zero. -/
def layerRelu (a x : Feat F) (wl wr : Mat F) (b : Row F) : Feat F :=
  maximumf (layerLin a x wl wr b) (broadcastInDim S50000x256 ![] bcast_S_S50000x256 (constant S_ .f32 0x00000000#32))

/-- The three layers' node features. -/
def feat1 (e : Edges F) (x : Feat F) (wl wr : Weights F) (b : Biases F) : Feat F :=
  layerRelu (agg e x) x (mat0 wl) (mat0 wr) (bias0 b)
def feat2 (e : Edges F) (x : Feat F) (wl wr : Weights F) (b : Biases F) : Feat F :=
  layerRelu (agg e (feat1 e x wl wr b)) (feat1 e x wl wr b) (mat1 wl) (mat1 wr) (bias1 b)
def feat3 (e : Edges F) (x : Feat F) (wl wr : Weights F) (b : Biases F) : Feat F :=
  layerLin (agg e (feat2 e x wl wr b)) (feat2 e x wl wr b) (mat2 wl) (mat2 wr) (bias2 b)

/-- The result: the three layers' features side by side. -/
def result (e : Edges F) (x : Feat F) (wl wr : Weights F) (b : Biases F) : (⟨S50000x768, .f32⟩ : BufTy).Contents (Elt F) :=
  concatenate S50000x768 1 [⟨S50000x256, feat1 e x wl wr b⟩, ⟨S50000x256, feat2 e x wl wr b⟩, ⟨S50000x256, feat3 e x wl wr b⟩]
    concatenates_S50000x256_S50000x256_S50000x256_S50000x768_d1

end Cert.Sage

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«151666_j82042465288656_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.Layer.lean ====
/-
  One layer's dense part, entry by entry.

  At a grid point the kernel's body sees 2000 rows of the aggregate a and of the features x (rows 2000·t … 2000·t + 1999 of
  the whole arrays), the two 256 x 256 matrices and the bias as a 1 x 256 row, and stores
      ((A·Wl + X·Wr) + bias) + X      (clamped at zero from below in the first two layers)
  with both products accumulated from zero.  Over the extended reals the narrowing of a product's operands to bfloat16 is
  the identity and each product's entry (r, q) is the sum over k of the operands' products, which is also what the host's
  product of the whole arrays has at row 2000·t + r; the bias row's entry q is added to every row on both sides; the sums
  are grouped alike.  So the body's value at (r, q) is the layer's value at (2000·t + r, q): no law of arithmetic is used,
  only that both sides are the same expression of the same entries.
-/
import proofs.«151666_j82042465288656_1_alg».proof.Proof.Spec
import proofs.«151666_j82042465288656_1_alg».proof.Proof.Gen.KernelIdeal.Skeleton
import proofs.«151666_j82042465288656_1_alg».proof.Proof.Gen.ReferenceIdeal
import proofs.«151666_j82042465288656_1_alg».proof.Proof.LibMatmulPlain
import proofs.«151666_j82042465288656_1_alg».proof.Proof.LibDotGeneralPlain
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Sage.Layer

open Idealize.ShloMosaic Idealize.ShloMosaic.ValueIdx

/-- Row r of block t is row 2000·t + r of the whole array. -/
def rowOf (t : Nat) (ht : t < 25) (r : Fin 2000) : Fin 50000 := ⟨2000 * t + r.val, by have := r.isLt; omega⟩

/-! ## Small readings used below -/

/-- Equal summands give equal sums. -/
private theorem add_eq_add {a b c d : EReal} (h1 : a = c) (h2 : b = d) : a + b = c + d := by rw [h1, h2]

/-- Equal arguments give equal maxima. -/
private theorem max_eq_max {a b c d : EReal} (h1 : a = c) (h2 : b = d) : max a b = max c d := by rw [h1, h2]

/-- A vector [n] laid as the one row [1, n] (a broadcast along axis 1): entry (u, i) is the vector's entry i. -/
private theorem bcast_vec_row_apply {α : Type} {n : Nat}
    (h : (⟨1, ![n]⟩ : Shape).BroadcastsInDim ⟨2, ![1, n]⟩ ![1]) (x : (⟨1, ![n]⟩ : Shape).Idx → α) (u : Fin 1) (i : Fin n) :
    broadcastInDim ⟨2, ![1, n]⟩ ![1] h x (ix2 u i) = x (ix1 i) :=
  broadcastInDim_apply ![1] h x (ix2 u i) (ix1 i) (fun a => match a with
    | ⟨0, _⟩ => by
        show i.val = if n = 1 then 0 else i.val
        have := i.isLt
        split_ifs <;> omega)

/-- A one-row matrix [1, n] repeated down m rows (a broadcast along axes 0 and 1): entry (p, i) is the row's entry i. -/
private theorem bcast_row_rows_apply {α : Type} {m n : Nat}
    (h : (⟨2, ![1, n]⟩ : Shape).BroadcastsInDim ⟨2, ![m, n]⟩ ![0, 1]) (y : (⟨2, ![1, n]⟩ : Shape).Idx → α) (p : Fin m) (i : Fin n) :
    broadcastInDim ⟨2, ![m, n]⟩ ![0, 1] h y (ix2 p i) = y (ix2 (0 : Fin 1) i) :=
  broadcastInDim_apply ![0, 1] h y (ix2 p i) (ix2 (0 : Fin 1) i) (fun a => match a with
    | ⟨0, _⟩ => by show (0 : Nat) = if (1 : Nat) = 1 then 0 else p.val; rw [if_pos rfl]
    | ⟨1, _⟩ => by
        show i.val = if n = 1 then 0 else i.val
        have := i.isLt
        split_ifs <;> omega)

/-! ## The body's value at an entry, from the entries of what it loaded -/

/-- The body's dense part at (r, q): both products are read as sums over the contracted axis (the narrowing of their
    operands is the identity), the bias row's entry q is added, then the residual's entry. -/
private theorem ker_lin_apply
    (D : DotDims ⟨2, ![2000, 256]⟩ ⟨2, ![256, 256]⟩ ⟨2, ![2000, 256]⟩) (hD : D = DotDims.plain 2000 256 256)
    (hb : FTy.bits .bf16 < FTy.bits .f32) (hbc : (⟨2, ![1, 256]⟩ : Shape).Broadcasts ⟨2, ![2000, 256]⟩)
    (x0 x1 : FVec Ideal ⟨2, ![2000, 256]⟩ .f32) (x2 x3 : FVec Ideal ⟨2, ![256, 256]⟩ .f32)
    (x4 : FVec Ideal ⟨2, ![1, 256]⟩ .f32) (r : Fin 2000) (q : Fin 256) :
    addf (addf (addf
        (matmul D none (truncf .bf16 x0 hb) (truncf .bf16 x2 hb) (constant (F := Ideal) ⟨2, ![2000, 256]⟩ .f32 0x00000000#32))
        (matmul D none (truncf .bf16 x1 hb) (truncf .bf16 x3 hb) (constant (F := Ideal) ⟨2, ![2000, 256]⟩ .f32 0x00000000#32)))
        (broadcastTo ⟨2, ![2000, 256]⟩ x4 hbc)) x1 (ix2 r q)
      = ((∑ k : Fin 256, x0 (ix2 r k) * x2 (ix2 k q) + ∑ k : Fin 256, x1 (ix2 r k) * x3 (ix2 k q))
          + x4 (ix2 (0 : Fin 1) q)) + x1 (ix2 r q) := by
  refine (addf_apply _ _ _).trans (add_eq_add ?_ rfl)
  refine (addf_apply _ _ _).trans (add_eq_add ?_ (broadcastTo_1b_ab_apply x4 hbc r q))
  refine (addf_apply _ _ _).trans (add_eq_add ?_ ?_)
  · exact Cert.LibMatmulPlain.matmul_plain_zero_apply D hD none (truncf .bf16 x0 hb) (truncf .bf16 x2 hb) r q
  · exact Cert.LibMatmulPlain.matmul_plain_zero_apply D hD none (truncf .bf16 x1 hb) (truncf .bf16 x3 hb) r q

/-- The clamped body at (r, q): the maximum of the dense part and the constant zero's value. -/
private theorem ker_relu_apply
    (D : DotDims ⟨2, ![2000, 256]⟩ ⟨2, ![256, 256]⟩ ⟨2, ![2000, 256]⟩) (hD : D = DotDims.plain 2000 256 256)
    (hb : FTy.bits .bf16 < FTy.bits .f32) (hbc : (⟨2, ![1, 256]⟩ : Shape).Broadcasts ⟨2, ![2000, 256]⟩)
    (x0 x1 : FVec Ideal ⟨2, ![2000, 256]⟩ .f32) (x2 x3 : FVec Ideal ⟨2, ![256, 256]⟩ .f32)
    (x4 : FVec Ideal ⟨2, ![1, 256]⟩ .f32) (r : Fin 2000) (q : Fin 256) :
    maximumf (addf (addf (addf
        (matmul D none (truncf .bf16 x0 hb) (truncf .bf16 x2 hb) (constant (F := Ideal) ⟨2, ![2000, 256]⟩ .f32 0x00000000#32))
        (matmul D none (truncf .bf16 x1 hb) (truncf .bf16 x3 hb) (constant (F := Ideal) ⟨2, ![2000, 256]⟩ .f32 0x00000000#32)))
        (broadcastTo ⟨2, ![2000, 256]⟩ x4 hbc)) x1)
        (broadcast ⟨2, ![2000, 256]⟩ (Scalar.ofBits (F := Ideal) .f32 0x00000000#32)) (ix2 r q)
      = max (((∑ k : Fin 256, x0 (ix2 r k) * x2 (ix2 k q) + ∑ k : Fin 256, x1 (ix2 r k) * x3 (ix2 k q))
          + x4 (ix2 (0 : Fin 1) q)) + x1 (ix2 r q)) (Ideal.ofBits .f32 0x00000000#32) :=
  (maximumf_apply _ _ _).trans (max_eq_max (ker_lin_apply D hD hb hbc x0 x1 x2 x3 x4 r q) rfl)

/-! ## The layer's value at an entry, from the entries of its arguments -/

/-- The layer before the clamp at (p, q): the host's two products are sums over the contracted axis, the bias row
    (made a one-row matrix, then repeated down the rows) gives its entry q, then the features' entry is added. -/
private theorem ref_lin_apply (A X : FVec Ideal ⟨2, ![50000, 256]⟩ .f32) (WL WR : FVec Ideal ⟨2, ![256, 256]⟩ .f32)
    (B : FVec Ideal ⟨1, ![256]⟩ .f32) (p : Fin 50000) (q : Fin 256) :
    Cert.Sage.layerLin (F := Ideal) A X WL WR B (ix2 p q)
      = ((∑ k : Fin 256, A (ix2 p k) * WL (ix2 k q) + ∑ k : Fin 256, X (ix2 p k) * WR (ix2 k q))
          + B (ix1 q)) + X (ix2 p q) := by
  unfold Cert.Sage.layerLin
  refine (addf_apply _ _ _).trans (add_eq_add ?_ rfl)
  refine (addf_apply _ _ _).trans (add_eq_add ?_ ?_)
  · refine (addf_apply _ _ _).trans (add_eq_add ?_ ?_)
    · exact Cert.LibDotGeneralPlain.dotGeneral_plain_apply (M := 50000) (K := 256) (N := 256) _ rfl none .single A WL p q
    · exact Cert.LibDotGeneralPlain.dotGeneral_plain_apply (M := 50000) (K := 256) (N := 256) _ rfl none .single X WR p q
  · exact (bcast_row_rows_apply _ _ p q).trans (bcast_vec_row_apply _ B (0 : Fin 1) q)

/-- The clamped layer at (p, q): the maximum of the layer before the clamp and the constant zero's value. -/
private theorem ref_relu_apply (A X : FVec Ideal ⟨2, ![50000, 256]⟩ .f32) (WL WR : FVec Ideal ⟨2, ![256, 256]⟩ .f32)
    (B : FVec Ideal ⟨1, ![256]⟩ .f32) (p : Fin 50000) (q : Fin 256) :
    Cert.Sage.layerRelu (F := Ideal) A X WL WR B (ix2 p q)
      = max (((∑ k : Fin 256, A (ix2 p k) * WL (ix2 k q) + ∑ k : Fin 256, X (ix2 p k) * WR (ix2 k q))
          + B (ix1 q)) + X (ix2 p q)) (Ideal.ofBits .f32 0x00000000#32) := by
  unfold Cert.Sage.layerRelu
  exact (maximumf_apply _ _ _).trans (max_eq_max (ref_lin_apply A X WL WR B p q) rfl)

/-! ## From the block's entries to the whole arrays' -/

/-- The dense part written over the block's entries is the dense part written over the whole arrays' entries at
    row 2000·t + r: every entry the block holds is that entry of the whole array. -/
private theorem lin_block_eq (A X : FVec Ideal ⟨2, ![50000, 256]⟩ .f32) (WL WR : FVec Ideal ⟨2, ![256, 256]⟩ .f32)
    (B : FVec Ideal ⟨1, ![256]⟩ .f32) (t : Nat) (ht : t < 25)
    (x0 x1 : FVec Ideal ⟨2, ![2000, 256]⟩ .f32) (x2 x3 : FVec Ideal ⟨2, ![256, 256]⟩ .f32) (x4 : FVec Ideal ⟨2, ![1, 256]⟩ .f32)
    (h0 : ∀ (r : Fin 2000) (k : Fin 256), x0 (ix2 r k) = A (ix2 (rowOf t ht r) k))
    (h1 : ∀ (r : Fin 2000) (k : Fin 256), x1 (ix2 r k) = X (ix2 (rowOf t ht r) k))
    (h2 : ∀ (k q : Fin 256), x2 (ix2 k q) = WL (ix2 k q))
    (h3 : ∀ (k q : Fin 256), x3 (ix2 k q) = WR (ix2 k q))
    (h4 : ∀ (q : Fin 256), x4 (ix2 (0 : Fin 1) q) = B (ix1 q))
    (r : Fin 2000) (q : Fin 256) :
    ((∑ k : Fin 256, x0 (ix2 r k) * x2 (ix2 k q) + ∑ k : Fin 256, x1 (ix2 r k) * x3 (ix2 k q))
        + x4 (ix2 (0 : Fin 1) q)) + x1 (ix2 r q)
      = ((∑ k : Fin 256, A (ix2 (rowOf t ht r) k) * WL (ix2 k q) + ∑ k : Fin 256, X (ix2 (rowOf t ht r) k) * WR (ix2 k q))
        + B (ix1 q)) + X (ix2 (rowOf t ht r) q) :=
  add_eq_add
    (add_eq_add
      (add_eq_add
        (Finset.sum_congr rfl fun k _ => by rw [h0 r k, h2 k q])
        (Finset.sum_congr rfl fun k _ => by rw [h1 r k, h3 k q]))
      (h4 q))
    (h1 r q)

/-- Layer 0's body (clamped) at an entry. -/
theorem pay0_apply (A X : FVec Ideal Cert.ReferenceIdeal.S50000x256 .f32) (WL WR : FVec Ideal Cert.ReferenceIdeal.S256x256 .f32)
    (B : FVec Ideal Cert.ReferenceIdeal.S256 .f32) (t : Nat) (ht : t < 25)
    (x0 x1 : Vec Ideal Cert.KernelIdeal.S2000x256 .f32) (x2 x3 : Vec Ideal Cert.KernelIdeal.S256x256 .f32) (x4 : Vec Ideal Cert.KernelIdeal.S1x256 .f32)
    (h0 : ∀ (r : Fin 2000) (k : Fin 256), x0 (ix2 r k) = A (ix2 (rowOf t ht r) k))
    (h1 : ∀ (r : Fin 2000) (k : Fin 256), x1 (ix2 r k) = X (ix2 (rowOf t ht r) k))
    (h2 : ∀ (k q : Fin 256), x2 (ix2 k q) = WL (ix2 k q))
    (h3 : ∀ (k q : Fin 256), x3 (ix2 k q) = WR (ix2 k q))
    (h4 : ∀ (q : Fin 256), x4 (ix2 (0 : Fin 1) q) = B (ix1 q))
    (r : Fin 2000) (q : Fin 256) :
    Cert.KernelIdeal.Gen.k0_pay1 (F := Ideal) x0 x1 x2 x3 x4 (ix2 r q)
      = Cert.Sage.layerRelu (F := Ideal) A X WL WR B (ix2 (rowOf t ht r) q) := by
  unfold Cert.KernelIdeal.Gen.k0_pay1
  simp only [shapeCast_self]
  refine (ker_relu_apply _ rfl _ _ x0 x1 x2 x3 x4 r q).trans ?_
  refine Eq.trans ?_ (ref_relu_apply A X WL WR B (rowOf t ht r) q).symm
  exact max_eq_max (lin_block_eq A X WL WR B t ht x0 x1 x2 x3 x4 h0 h1 h2 h3 h4 r q) rfl

/-- Layer 1's body (clamped) at an entry. -/
theorem pay1_apply (A X : FVec Ideal Cert.ReferenceIdeal.S50000x256 .f32) (WL WR : FVec Ideal Cert.ReferenceIdeal.S256x256 .f32)
    (B : FVec Ideal Cert.ReferenceIdeal.S256 .f32) (t : Nat) (ht : t < 25)
    (x0 x1 : Vec Ideal Cert.KernelIdeal.S2000x256 .f32) (x2 x3 : Vec Ideal Cert.KernelIdeal.S256x256 .f32) (x4 : Vec Ideal Cert.KernelIdeal.S1x256 .f32)
    (h0 : ∀ (r : Fin 2000) (k : Fin 256), x0 (ix2 r k) = A (ix2 (rowOf t ht r) k))
    (h1 : ∀ (r : Fin 2000) (k : Fin 256), x1 (ix2 r k) = X (ix2 (rowOf t ht r) k))
    (h2 : ∀ (k q : Fin 256), x2 (ix2 k q) = WL (ix2 k q))
    (h3 : ∀ (k q : Fin 256), x3 (ix2 k q) = WR (ix2 k q))
    (h4 : ∀ (q : Fin 256), x4 (ix2 (0 : Fin 1) q) = B (ix1 q))
    (r : Fin 2000) (q : Fin 256) :
    Cert.KernelIdeal.Gen.k1_pay1 (F := Ideal) x0 x1 x2 x3 x4 (ix2 r q)
      = Cert.Sage.layerRelu (F := Ideal) A X WL WR B (ix2 (rowOf t ht r) q) := by
  unfold Cert.KernelIdeal.Gen.k1_pay1
  simp only [shapeCast_self]
  refine (ker_relu_apply _ rfl _ _ x0 x1 x2 x3 x4 r q).trans ?_
  refine Eq.trans ?_ (ref_relu_apply A X WL WR B (rowOf t ht r) q).symm
  exact max_eq_max (lin_block_eq A X WL WR B t ht x0 x1 x2 x3 x4 h0 h1 h2 h3 h4 r q) rfl

/-- Layer 2's body (not clamped) at an entry. -/
theorem pay2_apply (A X : FVec Ideal Cert.ReferenceIdeal.S50000x256 .f32) (WL WR : FVec Ideal Cert.ReferenceIdeal.S256x256 .f32)
    (B : FVec Ideal Cert.ReferenceIdeal.S256 .f32) (t : Nat) (ht : t < 25)
    (x0 x1 : Vec Ideal Cert.KernelIdeal.S2000x256 .f32) (x2 x3 : Vec Ideal Cert.KernelIdeal.S256x256 .f32) (x4 : Vec Ideal Cert.KernelIdeal.S1x256 .f32)
    (h0 : ∀ (r : Fin 2000) (k : Fin 256), x0 (ix2 r k) = A (ix2 (rowOf t ht r) k))
    (h1 : ∀ (r : Fin 2000) (k : Fin 256), x1 (ix2 r k) = X (ix2 (rowOf t ht r) k))
    (h2 : ∀ (k q : Fin 256), x2 (ix2 k q) = WL (ix2 k q))
    (h3 : ∀ (k q : Fin 256), x3 (ix2 k q) = WR (ix2 k q))
    (h4 : ∀ (q : Fin 256), x4 (ix2 (0 : Fin 1) q) = B (ix1 q))
    (r : Fin 2000) (q : Fin 256) :
    Cert.KernelIdeal.Gen.k2_pay1 (F := Ideal) x0 x1 x2 x3 x4 (ix2 r q)
      = Cert.Sage.layerLin (F := Ideal) A X WL WR B (ix2 (rowOf t ht r) q) := by
  unfold Cert.KernelIdeal.Gen.k2_pay1
  simp only [shapeCast_self]
  refine (ker_lin_apply _ rfl _ _ x0 x1 x2 x3 x4 r q).trans ?_
  refine Eq.trans ?_ (ref_lin_apply A X WL WR B (rowOf t ht r) q).symm
  exact lin_block_eq A X WL WR B t ht x0 x1 x2 x3 x4 h0 h1 h2 h3 h4 r q

end Cert.Sage.Layer

end
-- ==== Proof.KI.Final0.lean ====
/-
  Region 0 of the three, from blocks to the whole array.

  Grid point t reads rows 2000·t … 2000·t + 1999 of the aggregate and of the features, the whole of both matrices and the
  bias row, and writes rows 2000·t … 2000·t + 1999 of the result.  What it writes at (r, q) is the layer's value at
  (2000·t + r, q) (the layer read at an entry); the 25 blocks tile the 50000 rows, row i lying in block i / 2000.  So
  after the region the result array holds the layer of the arrays the region found, whole.
-/
import proofs.«151666_j82042465288656_1_alg».proof.Proof.KI.Region0
import proofs.«151666_j82042465288656_1_alg».proof.Proof.Spec
import proofs.«151666_j82042465288656_1_alg».proof.Proof.Layer
import Idealize.ShloMosaic.Lib.Pipeline.Value
import Idealize.ShloMosaic.Lib.ValueIdx

set_option maxRecDepth 16384

noncomputable section

namespace Cert.KernelIdeal.RunValue

open Cert.KernelIdeal Cert.KernelIdeal.Gen Cert.KernelIdeal.Run Cert.KernelIdeal.Facts₀
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff_r0 : (![0, 0] : Fin 2 → Nat) = fun _ => 0 := funext fun a => by fin_cases a <;> rfl

/-- The block indices, decided over the grid: the two row windows and the result window move with the point along
    the rows; the matrices and the bias stay. -/
theorem idx_r0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt25_r0 (t : Fin cfg0.N) : t.val < 25 := lt_of_lt_of_eq t.isLt N_0

/-- The aggregate's block at point t: rows 2000·t … of the array. -/
theorem rowsA_r0 (c : Dev nD) (t : Fin cfg0.N) (r : Fin 2000) (k : Fin 256) :
    (iblk0 V c 0 t : Vec Ideal S2000x256 .f32) (ix2 r k)
      = (V c (Pipeline.arrRef spec0 0) : S50000x256.Idx → Elt Ideal .f32) (ix2 (Cert.Sage.Layer.rowOf t.val (lt25_r0 t) r) k) := by
  obtain ⟨e0, e1, -⟩ := idx_r0 t
  unfold iblk0
  rw [View.read_apply]
  refine congrArg (V c (Pipeline.arrRef spec0 0) : S50000x256.Idx → Elt Ideal .f32) ?_
  funext a; apply Fin.ext
  match a with
  | ⟨0, _⟩ => show win0_0.index t (0 : Fin 2) * 2000 + 1 * r.val = 2000 * t.val + r.val; rw [e0]; omega
  | ⟨1, _⟩ => show win0_0.index t (1 : Fin 2) * 256 + 1 * k.val = k.val; rw [e1]; omega

/-- The features' block at point t: the same rows. -/
theorem rowsX_r0 (c : Dev nD) (t : Fin cfg0.N) (r : Fin 2000) (k : Fin 256) :
    (iblk0 V c 1 t : Vec Ideal S2000x256 .f32) (ix2 r k)
      = (V c (Pipeline.arrRef spec0 1) : S50000x256.Idx → Elt Ideal .f32) (ix2 (Cert.Sage.Layer.rowOf t.val (lt25_r0 t) r) k) := by
  obtain ⟨-, -, e0, e1, -⟩ := idx_r0 t
  unfold iblk0
  rw [View.read_apply]
  refine congrArg (V c (Pipeline.arrRef spec0 1) : S50000x256.Idx → Elt Ideal .f32) ?_
  funext a; apply Fin.ext
  match a with
  | ⟨0, _⟩ => show win0_1.index t (0 : Fin 2) * 2000 + 1 * r.val = 2000 * t.val + r.val; rw [e0]; omega
  | ⟨1, _⟩ => show win0_1.index t (1 : Fin 2) * 256 + 1 * k.val = k.val; rw [e1]; omega

/-- The first matrix's block is the matrix. -/
theorem matL_r0 (c : Dev nD) (t : Fin cfg0.N) (k q : Fin 256) :
    (iblk0 V c 2 t : Vec Ideal S256x256 .f32) (ix2 k q) = (V c (Pipeline.arrRef spec0 2) : S256x256.Idx → Elt Ideal .f32) (ix2 k q) := by
  obtain ⟨-, -, -, -, e0, e1, -⟩ := idx_r0 t
  unfold iblk0
  rw [View.read_apply]
  refine congrArg (V c (Pipeline.arrRef spec0 2) : S256x256.Idx → Elt Ideal .f32) ?_
  funext a; apply Fin.ext
  match a with
  | ⟨0, _⟩ => show win0_2.index t (0 : Fin 2) * 256 + 1 * k.val = k.val; rw [e0]; omega
  | ⟨1, _⟩ => show win0_2.index t (1 : Fin 2) * 256 + 1 * q.val = q.val; rw [e1]; omega

/-- The second matrix's block is the matrix. -/
theorem matR_r0 (c : Dev nD) (t : Fin cfg0.N) (k q : Fin 256) :
    (iblk0 V c 3 t : Vec Ideal S256x256 .f32) (ix2 k q) = (V c (Pipeline.arrRef spec0 3) : S256x256.Idx → Elt Ideal .f32) (ix2 k q) := by
  obtain ⟨-, -, -, -, -, -, e0, e1, -⟩ := idx_r0 t
  unfold iblk0
  rw [View.read_apply]
  refine congrArg (V c (Pipeline.arrRef spec0 3) : S256x256.Idx → Elt Ideal .f32) ?_
  funext a; apply Fin.ext
  match a with
  | ⟨0, _⟩ => show win0_3.index t (0 : Fin 2) * 256 + 1 * k.val = k.val; rw [e0]; omega
  | ⟨1, _⟩ => show win0_3.index t (1 : Fin 2) * 256 + 1 * q.val = q.val; rw [e1]; omega

/-- The bias as the kernel holds it, a 1 x 256 row, read back as a vector of 256. -/
def biasVec_r0 (c : Dev nD) : Cert.Sage.Row Ideal :=
  shapeCast Cert.ReferenceIdeal.S256 (V c (Pipeline.arrRef spec0 4) : S1x256.Idx → Elt Ideal .f32) Gen.shapeCasts_S1x256_S256

/-- The bias row's block is the row, whose entry q is the vector's. -/
theorem bias_r0 (c : Dev nD) (t : Fin cfg0.N) (q : Fin 256) :
    (iblk0 V c 4 t : Vec Ideal S1x256 .f32) (ix2 (0 : Fin 1) q) = (biasVec_r0 V c : Cert.ReferenceIdeal.S256.Idx → Elt Ideal .f32) (ix1 q) := by
  obtain ⟨-, -, -, -, -, -, -, -, e0, e1, -⟩ := idx_r0 t
  unfold iblk0 biasVec_r0
  rw [View.read_apply]
  refine (congrArg (V c (Pipeline.arrRef spec0 4) : S1x256.Idx → Elt Ideal .f32) ?_).trans
    (shapeCast_apply (V c (Pipeline.arrRef spec0 4) : S1x256.Idx → Elt Ideal .f32) Gen.shapeCasts_S1x256_S256 (ix1 q) (ix2 (0 : Fin 1) q) (by
      show (S1x256.rowMajor (ix2 (0 : Fin 1) q)).val = (Cert.ReferenceIdeal.S256.rowMajor (ix1 q)).val
      rw [Shape.rowMajor_val_two, Shape.rowMajor_val_one]; show (0 : Nat) * 256 + q.val = q.val; omega)).symm
  funext a; apply Fin.ext
  match a with
  | ⟨0, _⟩ => show win0_4.index t (0 : Fin 2) * 1 + 1 * 0 = 0; rw [e0]
  | ⟨1, _⟩ => show win0_4.index t (1 : Fin 2) * 256 + 1 * q.val = q.val; rw [e1]; omega

/-- The layer of the arrays the region finds. -/
def G_r0 (c : Dev nD) : S50000x256.Idx → Elt Ideal .f32 :=
  Cert.Sage.layerRelu (F := Ideal) (V c (Pipeline.arrRef spec0 0)) (V c (Pipeline.arrRef spec0 1)) (V c (Pipeline.arrRef spec0 2))
    (V c (Pipeline.arrRef spec0 3)) (biasVec_r0 V c)

/-- WHAT POINT t WRITES BACK is block t of the layer of the arrays the region finds. -/
theorem flushed_r0 (c : Dev nD) (t : Fin cfg0.N) :
    (dat0 V c).flushed 5 t = ((cfg0.win 5).blk t).view.read (Elt Ideal) (G_r0 V c) := by
  obtain ⟨-, -, -, -, -, -, -, -, -, -, e0, e1⟩ := idx_r0 t
  show (cfg0.win 5).cut (grid0.coords t) ((dat0 V c).after 5 t) = _
  rw [after0_5]
  unfold out0_5
  rw [View.canon_unit_zero zeroOff_r0]
  simp only [View.ld_unit_zero (S := S2000x256) zeroOff_r0, View.ld_unit_zero (S := S256x256) zeroOff_r0, View.ld_unit_zero (S := S1x256) zeroOff_r0]
  funext j
  have hj0 : (j 0).val < 2000 := (j 0).isLt
  have hj1 : (j 1).val < 256 := (j 1).isLt
  have hj : (cfg0.win 5).xinj (grid0.coords t) j = ix2 (⟨(j 0).val, hj0⟩ : Fin 2000) (⟨(j 1).val, hj1⟩ : Fin 256) :=
    funext fun a => by match a with | ⟨0, _⟩ => rfl | ⟨1, _⟩ => rfl
  show k0_pay1 (iblk0 V c 0 t) (iblk0 V c 1 t) (iblk0 V c 2 t) (iblk0 V c 3 t) (iblk0 V c 4 t) ((cfg0.win 5).xinj (grid0.coords t) j) = _
  rw [hj, View.read_apply]
  refine (Cert.Sage.Layer.pay0_apply (V c (Pipeline.arrRef spec0 0)) (V c (Pipeline.arrRef spec0 1)) (V c (Pipeline.arrRef spec0 2))
    (V c (Pipeline.arrRef spec0 3)) (biasVec_r0 V c) t.val (lt25_r0 t) (iblk0 V c 0 t) (iblk0 V c 1 t) (iblk0 V c 2 t) (iblk0 V c 3 t) (iblk0 V c 4 t)
    (rowsA_r0 V c t) (rowsX_r0 V c t) (matL_r0 V c t) (matR_r0 V c t) (bias_r0 V c t) ⟨(j 0).val, hj0⟩ ⟨(j 1).val, hj1⟩).trans ?_
  unfold G_r0
  refine congrArg (Cert.Sage.layerRelu (F := Ideal) (V c (Pipeline.arrRef spec0 0)) (V c (Pipeline.arrRef spec0 1)) (V c (Pipeline.arrRef spec0 2))
    (V c (Pipeline.arrRef spec0 3)) (biasVec_r0 V c) : S50000x256.Idx → Elt Ideal .f32) ?_
  funext a; apply Fin.ext
  match a with
  | ⟨0, _⟩ => show 2000 * t.val + (j 0).val = win0_5.index t (0 : Fin 2) * 2000 + 1 * (j 0).val; rw [e0]; omega
  | ⟨1, _⟩ => show (j 1).val = win0_5.index t (1 : Fin 2) * 256 + 1 * (j 1).val; rw [e1]; omega

/-- An index of the result array is in point t's block iff each coordinate is in the block's range on its axis. -/
theorem memBlk_r0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v33).slice (win0_5.rect t)).set ↔ _
  rw [View.set_slice_whole, Rect.mem_set_unit]
  exact Iff.rfl

/-- THE RESULT ARRAY after the region: the layer of the arrays the region found. -/
theorem final_r0 (c : Dev nD) : (dat0 V c).arrAt 5 cfg0.N = G_r0 V c :=
  (dat0 V c).arrAt_eq_of_cover 5 (G_r0 V c) (fun t _ => flushed_r0 V c t) fun i => by
    have hi0 : (i 0).val < 50000 := (i 0).isLt
    have hi1 : (i 1).val < 256 := (i 1).isLt
    have hN : cfg0.N = 25 := N_0
    obtain ⟨t, ht⟩ : ∃ t : Fin cfg0.N, t.val = (i 0).val / 2000 := ⟨⟨(i 0).val / 2000, by rw [hN]; omega⟩, rfl⟩
    obtain ⟨-, -, -, -, -, -, -, -, -, -, e0, e1⟩ := idx_r0 t
    refine ⟨t, flush0_5 t, ?_⟩
    rw [memBlk_r0]
    intro a
    match a with
    | ⟨0, _⟩ =>
      show win0_5.index t (0 : Fin 2) * 2000 ≤ (i 0).val ∧ (i 0).val < win0_5.index t (0 : Fin 2) * 2000 + 2000
      rw [e0, ht]; omega
    | ⟨1, _⟩ =>
      show win0_5.index t (1 : Fin 2) * 256 ≤ (i 1).val ∧ (i 1).val < win0_5.index t (1 : Fin 2) * 256 + 256
      rw [e1]; omega

end Cert.KernelIdeal.RunValue

end
-- ==== Proof.KI.Final1.lean ====
/-
  Region 1 of the three, from blocks to the whole array.

  Grid point t reads rows 2000·t … 2000·t + 1999 of the aggregate and of the features, the whole of both matrices and the
  bias row, and writes rows 2000·t … 2000·t + 1999 of the result.  What it writes at (r, q) is the layer's value at
  (2000·t + r, q) (the layer read at an entry); the 25 blocks tile the 50000 rows, row i lying in block i / 2000.  So
  after the region the result array holds the layer of the arrays the region found, whole.
-/
import proofs.«151666_j82042465288656_1_alg».proof.Proof.KI.Region1
import proofs.«151666_j82042465288656_1_alg».proof.Proof.Spec
import proofs.«151666_j82042465288656_1_alg».proof.Proof.Layer
import Idealize.ShloMosaic.Lib.Pipeline.Value
import Idealize.ShloMosaic.Lib.ValueIdx

set_option maxRecDepth 16384

noncomputable section

namespace Cert.KernelIdeal.RunValue

open Cert.KernelIdeal Cert.KernelIdeal.Gen Cert.KernelIdeal.Run Cert.KernelIdeal.Facts₀
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff_r1 : (![0, 0] : Fin 2 → Nat) = fun _ => 0 := funext fun a => by fin_cases a <;> rfl

/-- The block indices, decided over the grid: the two row windows and the result window move with the point along
    the rows; the matrices and the bias stay. -/
theorem idx_r1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt25_r1 (t : Fin cfg1.N) : t.val < 25 := lt_of_lt_of_eq t.isLt N_1

/-- The aggregate's block at point t: rows 2000·t … of the array. -/
theorem rowsA_r1 (c : Dev nD) (t : Fin cfg1.N) (r : Fin 2000) (k : Fin 256) :
    (iblk1 V c 0 t : Vec Ideal S2000x256 .f32) (ix2 r k)
      = (V c (Pipeline.arrRef spec1 0) : S50000x256.Idx → Elt Ideal .f32) (ix2 (Cert.Sage.Layer.rowOf t.val (lt25_r1 t) r) k) := by
  obtain ⟨e0, e1, -⟩ := idx_r1 t
  unfold iblk1
  rw [View.read_apply]
  refine congrArg (V c (Pipeline.arrRef spec1 0) : S50000x256.Idx → Elt Ideal .f32) ?_
  funext a; apply Fin.ext
  match a with
  | ⟨0, _⟩ => show win1_0.index t (0 : Fin 2) * 2000 + 1 * r.val = 2000 * t.val + r.val; rw [e0]; omega
  | ⟨1, _⟩ => show win1_0.index t (1 : Fin 2) * 256 + 1 * k.val = k.val; rw [e1]; omega

/-- The features' block at point t: the same rows. -/
theorem rowsX_r1 (c : Dev nD) (t : Fin cfg1.N) (r : Fin 2000) (k : Fin 256) :
    (iblk1 V c 1 t : Vec Ideal S2000x256 .f32) (ix2 r k)
      = (V c (Pipeline.arrRef spec1 1) : S50000x256.Idx → Elt Ideal .f32) (ix2 (Cert.Sage.Layer.rowOf t.val (lt25_r1 t) r) k) := by
  obtain ⟨-, -, e0, e1, -⟩ := idx_r1 t
  unfold iblk1
  rw [View.read_apply]
  refine congrArg (V c (Pipeline.arrRef spec1 1) : S50000x256.Idx → Elt Ideal .f32) ?_
  funext a; apply Fin.ext
  match a with
  | ⟨0, _⟩ => show win1_1.index t (0 : Fin 2) * 2000 + 1 * r.val = 2000 * t.val + r.val; rw [e0]; omega
  | ⟨1, _⟩ => show win1_1.index t (1 : Fin 2) * 256 + 1 * k.val = k.val; rw [e1]; omega

/-- The first matrix's block is the matrix. -/
theorem matL_r1 (c : Dev nD) (t : Fin cfg1.N) (k q : Fin 256) :
    (iblk1 V c 2 t : Vec Ideal S256x256 .f32) (ix2 k q) = (V c (Pipeline.arrRef spec1 2) : S256x256.Idx → Elt Ideal .f32) (ix2 k q) := by
  obtain ⟨-, -, -, -, e0, e1, -⟩ := idx_r1 t
  unfold iblk1
  rw [View.read_apply]
  refine congrArg (V c (Pipeline.arrRef spec1 2) : S256x256.Idx → Elt Ideal .f32) ?_
  funext a; apply Fin.ext
  match a with
  | ⟨0, _⟩ => show win1_2.index t (0 : Fin 2) * 256 + 1 * k.val = k.val; rw [e0]; omega
  | ⟨1, _⟩ => show win1_2.index t (1 : Fin 2) * 256 + 1 * q.val = q.val; rw [e1]; omega

/-- The second matrix's block is the matrix. -/
theorem matR_r1 (c : Dev nD) (t : Fin cfg1.N) (k q : Fin 256) :
    (iblk1 V c 3 t : Vec Ideal S256x256 .f32) (ix2 k q) = (V c (Pipeline.arrRef spec1 3) : S256x256.Idx → Elt Ideal .f32) (ix2 k q) := by
  obtain ⟨-, -, -, -, -, -, e0, e1, -⟩ := idx_r1 t
  unfold iblk1
  rw [View.read_apply]
  refine congrArg (V c (Pipeline.arrRef spec1 3) : S256x256.Idx → Elt Ideal .f32) ?_
  funext a; apply Fin.ext
  match a with
  | ⟨0, _⟩ => show win1_3.index t (0 : Fin 2) * 256 + 1 * k.val = k.val; rw [e0]; omega
  | ⟨1, _⟩ => show win1_3.index t (1 : Fin 2) * 256 + 1 * q.val = q.val; rw [e1]; omega

/-- The bias as the kernel holds it, a 1 x 256 row, read back as a vector of 256. -/
def biasVec_r1 (c : Dev nD) : Cert.Sage.Row Ideal :=
  shapeCast Cert.ReferenceIdeal.S256 (V c (Pipeline.arrRef spec1 4) : S1x256.Idx → Elt Ideal .f32) Gen.shapeCasts_S1x256_S256

/-- The bias row's block is the row, whose entry q is the vector's. -/
theorem bias_r1 (c : Dev nD) (t : Fin cfg1.N) (q : Fin 256) :
    (iblk1 V c 4 t : Vec Ideal S1x256 .f32) (ix2 (0 : Fin 1) q) = (biasVec_r1 V c : Cert.ReferenceIdeal.S256.Idx → Elt Ideal .f32) (ix1 q) := by
  obtain ⟨-, -, -, -, -, -, -, -, e0, e1, -⟩ := idx_r1 t
  unfold iblk1 biasVec_r1
  rw [View.read_apply]
  refine (congrArg (V c (Pipeline.arrRef spec1 4) : S1x256.Idx → Elt Ideal .f32) ?_).trans
    (shapeCast_apply (V c (Pipeline.arrRef spec1 4) : S1x256.Idx → Elt Ideal .f32) Gen.shapeCasts_S1x256_S256 (ix1 q) (ix2 (0 : Fin 1) q) (by
      show (S1x256.rowMajor (ix2 (0 : Fin 1) q)).val = (Cert.ReferenceIdeal.S256.rowMajor (ix1 q)).val
      rw [Shape.rowMajor_val_two, Shape.rowMajor_val_one]; show (0 : Nat) * 256 + q.val = q.val; omega)).symm
  funext a; apply Fin.ext
  match a with
  | ⟨0, _⟩ => show win1_4.index t (0 : Fin 2) * 1 + 1 * 0 = 0; rw [e0]
  | ⟨1, _⟩ => show win1_4.index t (1 : Fin 2) * 256 + 1 * q.val = q.val; rw [e1]; omega

/-- The layer of the arrays the region finds. -/
def G_r1 (c : Dev nD) : S50000x256.Idx → Elt Ideal .f32 :=
  Cert.Sage.layerRelu (F := Ideal) (V c (Pipeline.arrRef spec1 0)) (V c (Pipeline.arrRef spec1 1)) (V c (Pipeline.arrRef spec1 2))
    (V c (Pipeline.arrRef spec1 3)) (biasVec_r1 V c)

/-- WHAT POINT t WRITES BACK is block t of the layer of the arrays the region finds. -/
theorem flushed_r1 (c : Dev nD) (t : Fin cfg1.N) :
    (dat1 V c).flushed 5 t = ((cfg1.win 5).blk t).view.read (Elt Ideal) (G_r1 V c) := by
  obtain ⟨-, -, -, -, -, -, -, -, -, -, e0, e1⟩ := idx_r1 t
  show (cfg1.win 5).cut (grid1.coords t) ((dat1 V c).after 5 t) = _
  rw [after1_5]
  unfold out1_5
  rw [View.canon_unit_zero zeroOff_r1]
  simp only [View.ld_unit_zero (S := S2000x256) zeroOff_r1, View.ld_unit_zero (S := S256x256) zeroOff_r1, View.ld_unit_zero (S := S1x256) zeroOff_r1]
  funext j
  have hj0 : (j 0).val < 2000 := (j 0).isLt
  have hj1 : (j 1).val < 256 := (j 1).isLt
  have hj : (cfg1.win 5).xinj (grid1.coords t) j = ix2 (⟨(j 0).val, hj0⟩ : Fin 2000) (⟨(j 1).val, hj1⟩ : Fin 256) :=
    funext fun a => by match a with | ⟨0, _⟩ => rfl | ⟨1, _⟩ => rfl
  show k1_pay1 (iblk1 V c 0 t) (iblk1 V c 1 t) (iblk1 V c 2 t) (iblk1 V c 3 t) (iblk1 V c 4 t) ((cfg1.win 5).xinj (grid1.coords t) j) = _
  rw [hj, View.read_apply]
  refine (Cert.Sage.Layer.pay1_apply (V c (Pipeline.arrRef spec1 0)) (V c (Pipeline.arrRef spec1 1)) (V c (Pipeline.arrRef spec1 2))
    (V c (Pipeline.arrRef spec1 3)) (biasVec_r1 V c) t.val (lt25_r1 t) (iblk1 V c 0 t) (iblk1 V c 1 t) (iblk1 V c 2 t) (iblk1 V c 3 t) (iblk1 V c 4 t)
    (rowsA_r1 V c t) (rowsX_r1 V c t) (matL_r1 V c t) (matR_r1 V c t) (bias_r1 V c t) ⟨(j 0).val, hj0⟩ ⟨(j 1).val, hj1⟩).trans ?_
  unfold G_r1
  refine congrArg (Cert.Sage.layerRelu (F := Ideal) (V c (Pipeline.arrRef spec1 0)) (V c (Pipeline.arrRef spec1 1)) (V c (Pipeline.arrRef spec1 2))
    (V c (Pipeline.arrRef spec1 3)) (biasVec_r1 V c) : S50000x256.Idx → Elt Ideal .f32) ?_
  funext a; apply Fin.ext
  match a with
  | ⟨0, _⟩ => show 2000 * t.val + (j 0).val = win1_5.index t (0 : Fin 2) * 2000 + 1 * (j 0).val; rw [e0]; omega
  | ⟨1, _⟩ => show (j 1).val = win1_5.index t (1 : Fin 2) * 256 + 1 * (j 1).val; rw [e1]; omega

/-- An index of the result array is in point t's block iff each coordinate is in the block's range on its axis. -/
theorem memBlk_r1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v53).slice (win1_5.rect t)).set ↔ _
  rw [View.set_slice_whole, Rect.mem_set_unit]
  exact Iff.rfl

/-- THE RESULT ARRAY after the region: the layer of the arrays the region found. -/
theorem final_r1 (c : Dev nD) : (dat1 V c).arrAt 5 cfg1.N = G_r1 V c :=
  (dat1 V c).arrAt_eq_of_cover 5 (G_r1 V c) (fun t _ => flushed_r1 V c t) fun i => by
    have hi0 : (i 0).val < 50000 := (i 0).isLt
    have hi1 : (i 1).val < 256 := (i 1).isLt
    have hN : cfg1.N = 25 := N_1
    obtain ⟨t, ht⟩ : ∃ t : Fin cfg1.N, t.val = (i 0).val / 2000 := ⟨⟨(i 0).val / 2000, by rw [hN]; omega⟩, rfl⟩
    obtain ⟨-, -, -, -, -, -, -, -, -, -, e0, e1⟩ := idx_r1 t
    refine ⟨t, flush1_5 t, ?_⟩
    rw [memBlk_r1]
    intro a
    match a with
    | ⟨0, _⟩ =>
      show win1_5.index t (0 : Fin 2) * 2000 ≤ (i 0).val ∧ (i 0).val < win1_5.index t (0 : Fin 2) * 2000 + 2000
      rw [e0, ht]; omega
    | ⟨1, _⟩ =>
      show win1_5.index t (1 : Fin 2) * 256 ≤ (i 1).val ∧ (i 1).val < win1_5.index t (1 : Fin 2) * 256 + 256
      rw [e1]; omega

end Cert.KernelIdeal.RunValue

end
-- ==== Proof.KI.Final2.lean ====
/-
  Region 2 of the three, from blocks to the whole array.

  Grid point t reads rows 2000·t … 2000·t + 1999 of the aggregate and of the features, the whole of both matrices and the
  bias row, and writes rows 2000·t … 2000·t + 1999 of the result.  What it writes at (r, q) is the layer's value at
  (2000·t + r, q) (the layer read at an entry); the 25 blocks tile the 50000 rows, row i lying in block i / 2000.  So
  after the region the result array holds the layer of the arrays the region found, whole.
-/
import proofs.«151666_j82042465288656_1_alg».proof.Proof.KI.Region2
import proofs.«151666_j82042465288656_1_alg».proof.Proof.Spec
import proofs.«151666_j82042465288656_1_alg».proof.Proof.Layer
import Idealize.ShloMosaic.Lib.Pipeline.Value
import Idealize.ShloMosaic.Lib.ValueIdx

set_option maxRecDepth 16384

noncomputable section

namespace Cert.KernelIdeal.RunValue

open Cert.KernelIdeal Cert.KernelIdeal.Gen Cert.KernelIdeal.Run Cert.KernelIdeal.Facts₀
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff_r2 : (![0, 0] : Fin 2 → Nat) = fun _ => 0 := funext fun a => by fin_cases a <;> rfl

/-- The block indices, decided over the grid: the two row windows and the result window move with the point along
    the rows; the matrices and the bias stay. -/
theorem idx_r2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem lt25_r2 (t : Fin cfg2.N) : t.val < 25 := lt_of_lt_of_eq t.isLt N_2

/-- The aggregate's block at point t: rows 2000·t … of the array. -/
theorem rowsA_r2 (c : Dev nD) (t : Fin cfg2.N) (r : Fin 2000) (k : Fin 256) :
    (iblk2 V c 0 t : Vec Ideal S2000x256 .f32) (ix2 r k)
      = (V c (Pipeline.arrRef spec2 0) : S50000x256.Idx → Elt Ideal .f32) (ix2 (Cert.Sage.Layer.rowOf t.val (lt25_r2 t) r) k) := by
  obtain ⟨e0, e1, -⟩ := idx_r2 t
  unfold iblk2
  rw [View.read_apply]
  refine congrArg (V c (Pipeline.arrRef spec2 0) : S50000x256.Idx → Elt Ideal .f32) ?_
  funext a; apply Fin.ext
  match a with
  | ⟨0, _⟩ => show win2_0.index t (0 : Fin 2) * 2000 + 1 * r.val = 2000 * t.val + r.val; rw [e0]; omega
  | ⟨1, _⟩ => show win2_0.index t (1 : Fin 2) * 256 + 1 * k.val = k.val; rw [e1]; omega

/-- The features' block at point t: the same rows. -/
theorem rowsX_r2 (c : Dev nD) (t : Fin cfg2.N) (r : Fin 2000) (k : Fin 256) :
    (iblk2 V c 1 t : Vec Ideal S2000x256 .f32) (ix2 r k)
      = (V c (Pipeline.arrRef spec2 1) : S50000x256.Idx → Elt Ideal .f32) (ix2 (Cert.Sage.Layer.rowOf t.val (lt25_r2 t) r) k) := by
  obtain ⟨-, -, e0, e1, -⟩ := idx_r2 t
  unfold iblk2
  rw [View.read_apply]
  refine congrArg (V c (Pipeline.arrRef spec2 1) : S50000x256.Idx → Elt Ideal .f32) ?_
  funext a; apply Fin.ext
  match a with
  | ⟨0, _⟩ => show win2_1.index t (0 : Fin 2) * 2000 + 1 * r.val = 2000 * t.val + r.val; rw [e0]; omega
  | ⟨1, _⟩ => show win2_1.index t (1 : Fin 2) * 256 + 1 * k.val = k.val; rw [e1]; omega

/-- The first matrix's block is the matrix. -/
theorem matL_r2 (c : Dev nD) (t : Fin cfg2.N) (k q : Fin 256) :
    (iblk2 V c 2 t : Vec Ideal S256x256 .f32) (ix2 k q) = (V c (Pipeline.arrRef spec2 2) : S256x256.Idx → Elt Ideal .f32) (ix2 k q) := by
  obtain ⟨-, -, -, -, e0, e1, -⟩ := idx_r2 t
  unfold iblk2
  rw [View.read_apply]
  refine congrArg (V c (Pipeline.arrRef spec2 2) : S256x256.Idx → Elt Ideal .f32) ?_
  funext a; apply Fin.ext
  match a with
  | ⟨0, _⟩ => show win2_2.index t (0 : Fin 2) * 256 + 1 * k.val = k.val; rw [e0]; omega
  | ⟨1, _⟩ => show win2_2.index t (1 : Fin 2) * 256 + 1 * q.val = q.val; rw [e1]; omega

/-- The second matrix's block is the matrix. -/
theorem matR_r2 (c : Dev nD) (t : Fin cfg2.N) (k q : Fin 256) :
    (iblk2 V c 3 t : Vec Ideal S256x256 .f32) (ix2 k q) = (V c (Pipeline.arrRef spec2 3) : S256x256.Idx → Elt Ideal .f32) (ix2 k q) := by
  obtain ⟨-, -, -, -, -, -, e0, e1, -⟩ := idx_r2 t
  unfold iblk2
  rw [View.read_apply]
  refine congrArg (V c (Pipeline.arrRef spec2 3) : S256x256.Idx → Elt Ideal .f32) ?_
  funext a; apply Fin.ext
  match a with
  | ⟨0, _⟩ => show win2_3.index t (0 : Fin 2) * 256 + 1 * k.val = k.val; rw [e0]; omega
  | ⟨1, _⟩ => show win2_3.index t (1 : Fin 2) * 256 + 1 * q.val = q.val; rw [e1]; omega

/-- The bias as the kernel holds it, a 1 x 256 row, read back as a vector of 256. -/
def biasVec_r2 (c : Dev nD) : Cert.Sage.Row Ideal :=
  shapeCast Cert.ReferenceIdeal.S256 (V c (Pipeline.arrRef spec2 4) : S1x256.Idx → Elt Ideal .f32) Gen.shapeCasts_S1x256_S256

/-- The bias row's block is the row, whose entry q is the vector's. -/
theorem bias_r2 (c : Dev nD) (t : Fin cfg2.N) (q : Fin 256) :
    (iblk2 V c 4 t : Vec Ideal S1x256 .f32) (ix2 (0 : Fin 1) q) = (biasVec_r2 V c : Cert.ReferenceIdeal.S256.Idx → Elt Ideal .f32) (ix1 q) := by
  obtain ⟨-, -, -, -, -, -, -, -, e0, e1, -⟩ := idx_r2 t
  unfold iblk2 biasVec_r2
  rw [View.read_apply]
  refine (congrArg (V c (Pipeline.arrRef spec2 4) : S1x256.Idx → Elt Ideal .f32) ?_).trans
    (shapeCast_apply (V c (Pipeline.arrRef spec2 4) : S1x256.Idx → Elt Ideal .f32) Gen.shapeCasts_S1x256_S256 (ix1 q) (ix2 (0 : Fin 1) q) (by
      show (S1x256.rowMajor (ix2 (0 : Fin 1) q)).val = (Cert.ReferenceIdeal.S256.rowMajor (ix1 q)).val
      rw [Shape.rowMajor_val_two, Shape.rowMajor_val_one]; show (0 : Nat) * 256 + q.val = q.val; omega)).symm
  funext a; apply Fin.ext
  match a with
  | ⟨0, _⟩ => show win2_4.index t (0 : Fin 2) * 1 + 1 * 0 = 0; rw [e0]
  | ⟨1, _⟩ => show win2_4.index t (1 : Fin 2) * 256 + 1 * q.val = q.val; rw [e1]; omega

/-- The layer of the arrays the region finds. -/
def G_r2 (c : Dev nD) : S50000x256.Idx → Elt Ideal .f32 :=
  Cert.Sage.layerLin (F := Ideal) (V c (Pipeline.arrRef spec2 0)) (V c (Pipeline.arrRef spec2 1)) (V c (Pipeline.arrRef spec2 2))
    (V c (Pipeline.arrRef spec2 3)) (biasVec_r2 V c)

/-- WHAT POINT t WRITES BACK is block t of the layer of the arrays the region finds. -/
theorem flushed_r2 (c : Dev nD) (t : Fin cfg2.N) :
    (dat2 V c).flushed 5 t = ((cfg2.win 5).blk t).view.read (Elt Ideal) (G_r2 V c) := by
  obtain ⟨-, -, -, -, -, -, -, -, -, -, e0, e1⟩ := idx_r2 t
  show (cfg2.win 5).cut (grid2.coords t) ((dat2 V c).after 5 t) = _
  rw [after2_5]
  unfold out2_5
  rw [View.canon_unit_zero zeroOff_r2]
  simp only [View.ld_unit_zero (S := S2000x256) zeroOff_r2, View.ld_unit_zero (S := S256x256) zeroOff_r2, View.ld_unit_zero (S := S1x256) zeroOff_r2]
  funext j
  have hj0 : (j 0).val < 2000 := (j 0).isLt
  have hj1 : (j 1).val < 256 := (j 1).isLt
  have hj : (cfg2.win 5).xinj (grid2.coords t) j = ix2 (⟨(j 0).val, hj0⟩ : Fin 2000) (⟨(j 1).val, hj1⟩ : Fin 256) :=
    funext fun a => by match a with | ⟨0, _⟩ => rfl | ⟨1, _⟩ => rfl
  show k2_pay1 (iblk2 V c 0 t) (iblk2 V c 1 t) (iblk2 V c 2 t) (iblk2 V c 3 t) (iblk2 V c 4 t) ((cfg2.win 5).xinj (grid2.coords t) j) = _
  rw [hj, View.read_apply]
  refine (Cert.Sage.Layer.pay2_apply (V c (Pipeline.arrRef spec2 0)) (V c (Pipeline.arrRef spec2 1)) (V c (Pipeline.arrRef spec2 2))
    (V c (Pipeline.arrRef spec2 3)) (biasVec_r2 V c) t.val (lt25_r2 t) (iblk2 V c 0 t) (iblk2 V c 1 t) (iblk2 V c 2 t) (iblk2 V c 3 t) (iblk2 V c 4 t)
    (rowsA_r2 V c t) (rowsX_r2 V c t) (matL_r2 V c t) (matR_r2 V c t) (bias_r2 V c t) ⟨(j 0).val, hj0⟩ ⟨(j 1).val, hj1⟩).trans ?_
  unfold G_r2
  refine congrArg (Cert.Sage.layerLin (F := Ideal) (V c (Pipeline.arrRef spec2 0)) (V c (Pipeline.arrRef spec2 1)) (V c (Pipeline.arrRef spec2 2))
    (V c (Pipeline.arrRef spec2 3)) (biasVec_r2 V c) : S50000x256.Idx → Elt Ideal .f32) ?_
  funext a; apply Fin.ext
  match a with
  | ⟨0, _⟩ => show 2000 * t.val + (j 0).val = win2_5.index t (0 : Fin 2) * 2000 + 1 * (j 0).val; rw [e0]; omega
  | ⟨1, _⟩ => show (j 1).val = win2_5.index t (1 : Fin 2) * 256 + 1 * (j 1).val; rw [e1]; omega

/-- An index of the result array is in point t's block iff each coordinate is in the block's range on its axis. -/
theorem memBlk_r2 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v73).slice (win2_5.rect t)).set ↔ _
  rw [View.set_slice_whole, Rect.mem_set_unit]
  exact Iff.rfl

/-- THE RESULT ARRAY after the region: the layer of the arrays the region found. -/
theorem final_r2 (c : Dev nD) : (dat2 V c).arrAt 5 cfg2.N = G_r2 V c :=
  (dat2 V c).arrAt_eq_of_cover 5 (G_r2 V c) (fun t _ => flushed_r2 V c t) fun i => by
    have hi0 : (i 0).val < 50000 := (i 0).isLt
    have hi1 : (i 1).val < 256 := (i 1).isLt
    have hN : cfg2.N = 25 := N_2
    obtain ⟨t, ht⟩ : ∃ t : Fin cfg2.N, t.val = (i 0).val / 2000 := ⟨⟨(i 0).val / 2000, by rw [hN]; omega⟩, rfl⟩
    obtain ⟨-, -, -, -, -, -, -, -, -, -, e0, e1⟩ := idx_r2 t
    refine ⟨t, flush2_5 t, ?_⟩
    rw [memBlk_r2]
    intro a
    match a with
    | ⟨0, _⟩ =>
      show win2_5.index t (0 : Fin 2) * 2000 ≤ (i 0).val ∧ (i 0).val < win2_5.index t (0 : Fin 2) * 2000 + 2000
      rw [e0, ht]; omega
    | ⟨1, _⟩ =>
      show win2_5.index t (1 : Fin 2) * 256 ≤ (i 1).val ∧ (i 1).val < win2_5.index t (1 : Fin 2) * 256 + 256
      rw [e1]; omega

end Cert.KernelIdeal.RunValue

end
-- ==== Proof.KI.Value.lean ====
/-
  The kernel program's result: the specification's result of the arguments.

  Before the first region the host operations split the edge list, count the in-degrees, choose the reciprocal column and
  aggregate the input features; they cut the first layer's matrices and bias out of the stacks.  The first region leaves
  the first layer's features (the layer of what it found).  The next stretch aggregates those and cuts out the second
  layer's weights; the second region leaves the second layer's features; likewise the third.  The last operation puts the
  three side by side.  Stretch by stretch the contents of the buffers are the specification's terms, because the host
  operations are the specification's own, and each region's result is the specification's layer because a region's result
  is the layer of the arrays it finds.
-/
import proofs.«151666_j82042465288656_1_alg».proof.Proof.KI.Args
import proofs.«151666_j82042465288656_1_alg».proof.Proof.KI.Final0
import proofs.«151666_j82042465288656_1_alg».proof.Proof.KI.Final1
import proofs.«151666_j82042465288656_1_alg».proof.Proof.KI.Final2
import proofs.«151666_j82042465288656_1_alg».proof.Proof.Spec
import Idealize.ShloMosaic.Lib.StableHlo.Run
import Idealize.ShloMosaic.Lib.Pipeline.Value

set_option maxRecDepth 16384

noncomputable section

namespace Cert.KernelIdeal.RunValue

open Cert.KernelIdeal Cert.KernelIdeal.Gen Cert.KernelIdeal.Run
open Idealize.ShloMosaic Idealize.ShloMosaic.TcCoe Idealize.SL.Sem Idealize.ShloMosaic.StableHlo
open Idealize.ShloMosaic.Pipeline (Dat)
open Cert.Sage (Edges Feat Weights Biases Mat Row)

variable (m : (ℓ : Loc nD τ sig) → Buf (Elt Ideal) ℓ) (ρ : Dev nD → PrngReg)

/-- The five arguments on core `c`, as the specification takes them. -/
abbrev aE (c : Dev nD) : Edges Ideal := m ((c.tc : Thread nD τ).loc main_arg0)
abbrev aX (c : Dev nD) : Feat Ideal := m ((c.tc : Thread nD τ).loc main_arg1)
abbrev aWl (c : Dev nD) : Weights Ideal := m ((c.tc : Thread nD τ).loc main_arg2)
abbrev aWr (c : Dev nD) : Weights Ideal := m ((c.tc : Thread nD τ).loc main_arg3)
abbrev aB (c : Dev nD) : Biases Ideal := m ((c.tc : Thread nD τ).loc main_arg4)

/-! ## Equal arguments, equal results -/

theorem layerRelu_congr {a a' x x' : Feat Ideal} {wl wl' wr wr' : Mat Ideal} {b b' : Row Ideal}
    (ha : a = a') (hx : x = x') (hwl : wl = wl') (hwr : wr = wr') (hb : b = b') :
    Cert.Sage.layerRelu (F := Ideal) a x wl wr b = Cert.Sage.layerRelu (F := Ideal) a' x' wl' wr' b' := by
  subst ha hx hwl hwr hb; rfl
theorem layerLin_congr {a a' x x' : Feat Ideal} {wl wl' wr wr' : Mat Ideal} {b b' : Row Ideal}
    (ha : a = a') (hx : x = x') (hwl : wl = wl') (hwr : wr = wr') (hb : b = b') :
    Cert.Sage.layerLin (F := Ideal) a x wl wr b = Cert.Sage.layerLin (F := Ideal) a' x' wl' wr' b' := by
  subst ha hx hwl hwr hb; rfl

/-! ## Before the first region -/

/-- The second stretch is the choice between the reciprocal and zero: where the in-degree is positive its reciprocal, elsewhere
    zero — of the comparison, the reciprocal and the zero constant as the stretch finds them. -/
theorem W2_choice (c : Dev nD) : (W2 m ρ c (Proc.devRef .tc main_v12) : (⟨Cert.ReferenceIdeal.S50000, .f32⟩ : BufTy).Contents (Elt Ideal))
    = select (W1 m ρ c (Proc.devRef .tc main_v9)) (W1 m ρ c (Proc.devRef .tc main_v11))
        (broadcastInDim Cert.ReferenceIdeal.S50000 ![] Cert.ReferenceIdeal.Gen.bcast_S_S50000 (id (W1 m ρ c (Proc.devRef .tc main_cst_3)))) := by
  show StableHlo.after hostOps0_1 (W1 m ρ c) (Proc.devRef .tc main_v12) = _
  generalize W1 m ρ c = W
  dsimp only [hostOps0_1]; after_results_simp; rfl
/-- It writes nothing else that is read later. -/
theorem W2_keep (c : Dev nD) (r : Ref sig .tc) (h : r ∉ hostOps0_1_W) : W2 m ρ c (Proc.devRef .tc r) = W1 m ρ c (Proc.devRef .tc r) :=
  StableHlo.after_of_writes_sub hostOps0_1 (W1 m ρ c) hostOps0_1_writes h

set_option maxHeartbeats 4000000 in
/-- What the edge list gives, as the first region is entered: the sources, the targets and the reciprocal in-degree
    column are the specification's, so an aggregation built from them is the specification's aggregation over the edge list. -/
theorem W3_edges (c : Dev nD) (x : Feat Ideal) :
    Cert.Sage.aggOf (F := Ideal) (W3 m ρ c (Proc.devRef .tc main_v1)) (W3 m ρ c (Proc.devRef .tc main_v3)) (W3 m ρ c (Proc.devRef .tc main_v13)) x
      = Cert.Sage.agg (F := Ideal) (aE m c) x := by
  unfold Cert.Sage.agg
  have h1 : Cert.Sage.srcRow (F := Ideal) (aE m c) = W3 m ρ c (Proc.devRef .tc main_v1) := by
    dsimp only [W3, W2, W1, W0, hostOps0, hostOps0_1, hostOps0_2]; after_results_simp; rfl
  have h2 : Cert.Sage.tgtRow (F := Ideal) (aE m c) = W3 m ρ c (Proc.devRef .tc main_v3) := by
    dsimp only [W3, W2, W1, W0, hostOps0, hostOps0_1, hostOps0_2]; after_results_simp; rfl
  have h3 : Cert.Sage.invDeg (F := Ideal) (aE m c) = W3 m ρ c (Proc.devRef .tc main_v13) := by
    show _ = StableHlo.after hostOps0_2 (W2 m ρ c) (Proc.devRef .tc main_v13)
    generalize hW : W2 m ρ c = W
    dsimp only [hostOps0_2]; after_results_simp
    subst hW
    rw [W2_choice]
    dsimp only [W1, W0, hostOps0]; after_results_simp; rfl
  rw [h1, h2, h3]

set_option maxHeartbeats 4000000 in
/-- The first region's five input arrays. -/
theorem W3_agg (c : Dev nD) : (W3 m ρ c (Proc.devRef .tc main_v25) : Feat Ideal) = Cert.Sage.agg (F := Ideal) (aE m c) (aX m c) := by
  show StableHlo.after hostOps0_2 (W2 m ρ c) (Proc.devRef .tc main_v25) = _
  generalize hW : W2 m ρ c = W
  dsimp only [hostOps0_2]; after_results_simp
  subst hW
  rw [W2_choice, W2_keep m ρ c main_v1 (by decide), W2_keep m ρ c main_v3 (by decide), W2_keep m ρ c main_arg1 (by decide)]
  dsimp only [W1, W0, hostOps0]; after_results_simp; rfl
theorem W3_x (c : Dev nD) : (W3 m ρ c (Proc.devRef .tc main_arg1) : Feat Ideal) = aX m c :=
  W3_untouched m ρ c main_arg1 (by decide) (by decide) (by decide)
set_option maxHeartbeats 4000000 in
theorem W3_wl (c : Dev nD) : (W3 m ρ c (Proc.devRef .tc main_v27) : Mat Ideal) = Cert.Sage.mat0 (F := Ideal) (aWl m c) := by
  dsimp only [W3, W2, W1, W0, hostOps0, hostOps0_1, hostOps0_2]; after_results_simp; rfl
set_option maxHeartbeats 4000000 in
theorem W3_wr (c : Dev nD) : (W3 m ρ c (Proc.devRef .tc main_v29) : Mat Ideal) = Cert.Sage.mat0 (F := Ideal) (aWr m c) := by
  dsimp only [W3, W2, W1, W0, hostOps0, hostOps0_1, hostOps0_2]; after_results_simp; rfl
set_option maxHeartbeats 4000000 in
theorem W3_b (c : Dev nD) : (W3 m ρ c (Proc.devRef .tc main_v32) : S1x256.Idx → Elt Ideal .f32)
    = shapeCast S1x256 (Cert.Sage.bias0 (F := Ideal) (aB m c)) Gen.shapeCasts_S256_S1x256 := by
  dsimp only [W3, W2, W1, W0, hostOps0, hostOps0_1, hostOps0_2]; after_results_simp; rfl

/-- THE FIRST LAYER'S FEATURES, as the first region leaves them. -/
theorem W4_feat1 (c : Dev nD) : (W4 m ρ c (Proc.devRef .tc main_v33) : Feat Ideal)
    = Cert.Sage.feat1 (F := Ideal) (aE m c) (aX m c) (aWl m c) (aWr m c) (aB m c) := by
  refine (W4_arr m ρ c 5).trans ((final_r0 (V3 m ρ) c).trans ?_)
  unfold G_r0 Cert.Sage.feat1
  refine layerRelu_congr (W3_agg m ρ c) (W3_x m ρ c) (W3_wl m ρ c) (W3_wr m ρ c) ?_
  unfold biasVec_r0
  exact (congrArg (fun y => shapeCast Cert.ReferenceIdeal.S256 y Gen.shapeCasts_S1x256_S256) (W3_b m ρ c)).trans
    (shapeCast_shapeCast _ _ _)

/-! ## Between the regions: what the edges give stays -/

/-- An array the first region does not stage and the second stretch does not write, at the second region's entry. -/
theorem W5_same (c : Dev nD) (r : Ref sig .tc) (h3 : ∀ w, Pipeline.arrRef spec0 w ≠ r) (h4 : r ∉ hostOps1_W) :
    W5 m ρ c (Proc.devRef .tc r) = W3 m ρ c (Proc.devRef .tc r) :=
  (StableHlo.after_of_writes_sub hostOps1 (W4 m ρ c) hostOps1_writes h4).trans (W4_of_ne m ρ c r h3)
/-- And at the third region's entry. -/
theorem W7_same (c : Dev nD) (r : Ref sig .tc) (h3 : ∀ w, Pipeline.arrRef spec0 w ≠ r) (h4 : r ∉ hostOps1_W)
    (h5 : ∀ w, Pipeline.arrRef spec1 w ≠ r) (h6 : r ∉ hostOps2_W) :
    W7 m ρ c (Proc.devRef .tc r) = W3 m ρ c (Proc.devRef .tc r) :=
  (StableHlo.after_of_writes_sub hostOps2 (W6 m ρ c) hostOps2_writes h6).trans
    ((W6_of_ne m ρ c r h5).trans (W5_same m ρ c r h3 h4))

/-! ## The second stretch and region -/

set_option maxHeartbeats 4000000 in
theorem W5_agg (c : Dev nD) : (W5 m ρ c (Proc.devRef .tc main_v45) : Feat Ideal)
    = Cert.Sage.aggOf (F := Ideal) (W4 m ρ c (Proc.devRef .tc main_v1)) (W4 m ρ c (Proc.devRef .tc main_v3)) (W4 m ρ c (Proc.devRef .tc main_v13))
        (W4 m ρ c (Proc.devRef .tc main_v33)) := by
  dsimp only [W5, hostOps1]; after_results_simp; rfl
set_option maxHeartbeats 4000000 in
theorem W5_wl (c : Dev nD) : (W5 m ρ c (Proc.devRef .tc main_v47) : Mat Ideal) = Cert.Sage.mat1 (F := Ideal) (W4 m ρ c (Proc.devRef .tc main_arg2)) := by
  dsimp only [W5, hostOps1]; after_results_simp; rfl
set_option maxHeartbeats 4000000 in
theorem W5_wr (c : Dev nD) : (W5 m ρ c (Proc.devRef .tc main_v49) : Mat Ideal) = Cert.Sage.mat1 (F := Ideal) (W4 m ρ c (Proc.devRef .tc main_arg3)) := by
  dsimp only [W5, hostOps1]; after_results_simp; rfl
set_option maxHeartbeats 4000000 in
theorem W5_b (c : Dev nD) : (W5 m ρ c (Proc.devRef .tc main_v52) : S1x256.Idx → Elt Ideal .f32)
    = shapeCast S1x256 (Cert.Sage.bias1 (F := Ideal) (W4 m ρ c (Proc.devRef .tc main_arg4))) Gen.shapeCasts_S256_S1x256 := by
  dsimp only [W5, hostOps1]; after_results_simp; rfl

/-- The aggregation over the edge list of the first layer's features. -/
theorem W5_agg' (c : Dev nD) : (W5 m ρ c (Proc.devRef .tc main_v45) : Feat Ideal)
    = Cert.Sage.agg (F := Ideal) (aE m c) (Cert.Sage.feat1 (F := Ideal) (aE m c) (aX m c) (aWl m c) (aWr m c) (aB m c)) := by
  rw [W5_agg, W4_of_ne m ρ c main_v1 (by decide), W4_of_ne m ρ c main_v3 (by decide), W4_of_ne m ρ c main_v13 (by decide), W4_feat1]
  exact W3_edges m ρ c _

/-- THE SECOND LAYER'S FEATURES, as the second region leaves them. -/
theorem W6_feat2 (c : Dev nD) : (W6 m ρ c (Proc.devRef .tc main_v53) : Feat Ideal)
    = Cert.Sage.feat2 (F := Ideal) (aE m c) (aX m c) (aWl m c) (aWr m c) (aB m c) := by
  refine (W6_arr m ρ c 5).trans ((final_r1 (V5 m ρ) c).trans ?_)
  unfold G_r1 Cert.Sage.feat2
  refine layerRelu_congr (W5_agg' m ρ c)
    ((StableHlo.after_of_writes_sub hostOps1 (W4 m ρ c) hostOps1_writes (by decide : main_v33 ∉ hostOps1_W)).trans (W4_feat1 m ρ c))
    ((W5_wl m ρ c).trans (congrArg (Cert.Sage.mat1 (F := Ideal)) ((W4_of_ne m ρ c main_arg2 (by decide)).trans (W3_untouched m ρ c main_arg2 (by decide) (by decide) (by decide)))))
    ((W5_wr m ρ c).trans (congrArg (Cert.Sage.mat1 (F := Ideal)) ((W4_of_ne m ρ c main_arg3 (by decide)).trans (W3_untouched m ρ c main_arg3 (by decide) (by decide) (by decide))))) ?_
  unfold biasVec_r1
  refine (congrArg (fun y => shapeCast Cert.ReferenceIdeal.S256 y Gen.shapeCasts_S1x256_S256) (W5_b m ρ c)).trans
    ((shapeCast_shapeCast _ _ _).trans ?_)
  exact congrArg (Cert.Sage.bias1 (F := Ideal)) ((W4_of_ne m ρ c main_arg4 (by decide)).trans (W3_untouched m ρ c main_arg4 (by decide) (by decide) (by decide)))

/-! ## The third stretch and region -/

set_option maxHeartbeats 4000000 in
theorem W7_agg (c : Dev nD) : (W7 m ρ c (Proc.devRef .tc main_v65) : Feat Ideal)
    = Cert.Sage.aggOf (F := Ideal) (W6 m ρ c (Proc.devRef .tc main_v1)) (W6 m ρ c (Proc.devRef .tc main_v3)) (W6 m ρ c (Proc.devRef .tc main_v13))
        (W6 m ρ c (Proc.devRef .tc main_v53)) := by
  dsimp only [W7, hostOps2]; after_results_simp; rfl
set_option maxHeartbeats 4000000 in
theorem W7_wl (c : Dev nD) : (W7 m ρ c (Proc.devRef .tc main_v67) : Mat Ideal) = Cert.Sage.mat2 (F := Ideal) (W6 m ρ c (Proc.devRef .tc main_arg2)) := by
  dsimp only [W7, hostOps2]; after_results_simp; rfl
set_option maxHeartbeats 4000000 in
theorem W7_wr (c : Dev nD) : (W7 m ρ c (Proc.devRef .tc main_v69) : Mat Ideal) = Cert.Sage.mat2 (F := Ideal) (W6 m ρ c (Proc.devRef .tc main_arg3)) := by
  dsimp only [W7, hostOps2]; after_results_simp; rfl
set_option maxHeartbeats 4000000 in
theorem W7_b (c : Dev nD) : (W7 m ρ c (Proc.devRef .tc main_v72) : S1x256.Idx → Elt Ideal .f32)
    = shapeCast S1x256 (Cert.Sage.bias2 (F := Ideal) (W6 m ρ c (Proc.devRef .tc main_arg4))) Gen.shapeCasts_S256_S1x256 := by
  dsimp only [W7, hostOps2]; after_results_simp; rfl

/-- An array neither of the first two regions stages and the second stretch does not write, at the second region's exit. -/
theorem W6_same (c : Dev nD) (r : Ref sig .tc) (h3 : ∀ w, Pipeline.arrRef spec0 w ≠ r) (h4 : r ∉ hostOps1_W)
    (h5 : ∀ w, Pipeline.arrRef spec1 w ≠ r) : W6 m ρ c (Proc.devRef .tc r) = W3 m ρ c (Proc.devRef .tc r) :=
  (W6_of_ne m ρ c r h5).trans (W5_same m ρ c r h3 h4)

/-- The aggregation over the edge list of the second layer's features. -/
theorem W7_agg' (c : Dev nD) : (W7 m ρ c (Proc.devRef .tc main_v65) : Feat Ideal)
    = Cert.Sage.agg (F := Ideal) (aE m c) (Cert.Sage.feat2 (F := Ideal) (aE m c) (aX m c) (aWl m c) (aWr m c) (aB m c)) := by
  rw [W7_agg, W6_same m ρ c main_v1 (by decide) (by decide) (by decide), W6_same m ρ c main_v3 (by decide) (by decide) (by decide),
    W6_same m ρ c main_v13 (by decide) (by decide) (by decide), W6_feat2]
  exact W3_edges m ρ c _

/-- THE THIRD LAYER'S FEATURES, as the third region leaves them. -/
theorem W8_feat3 (c : Dev nD) : (W8 m ρ c (Proc.devRef .tc main_v73) : Feat Ideal)
    = Cert.Sage.feat3 (F := Ideal) (aE m c) (aX m c) (aWl m c) (aWr m c) (aB m c) := by
  refine (W8_arr m ρ c 5).trans ((final_r2 (V7 m ρ) c).trans ?_)
  unfold G_r2 Cert.Sage.feat3
  refine layerLin_congr (W7_agg' m ρ c)
    ((StableHlo.after_of_writes_sub hostOps2 (W6 m ρ c) hostOps2_writes (by decide : main_v53 ∉ hostOps2_W)).trans (W6_feat2 m ρ c))
    ((W7_wl m ρ c).trans (congrArg (Cert.Sage.mat2 (F := Ideal)) ((W6_same m ρ c main_arg2 (by decide) (by decide) (by decide)).trans (W3_untouched m ρ c main_arg2 (by decide) (by decide) (by decide)))))
    ((W7_wr m ρ c).trans (congrArg (Cert.Sage.mat2 (F := Ideal)) ((W6_same m ρ c main_arg3 (by decide) (by decide) (by decide)).trans (W3_untouched m ρ c main_arg3 (by decide) (by decide) (by decide))))) ?_
  unfold biasVec_r2
  refine (congrArg (fun y => shapeCast Cert.ReferenceIdeal.S256 y Gen.shapeCasts_S1x256_S256) (W7_b m ρ c)).trans
    ((shapeCast_shapeCast _ _ _).trans ?_)
  exact congrArg (Cert.Sage.bias2 (F := Ideal)) ((W6_same m ρ c main_arg4 (by decide) (by decide) (by decide)).trans (W3_untouched m ρ c main_arg4 (by decide) (by decide) (by decide)))

/-! ## The end -/

/-- The first two layers' features are still there when the three are put side by side: the later regions stage them as
    inputs only, and no later stretch writes them. -/
theorem W8_feat1 (c : Dev nD) : (W8 m ρ c (Proc.devRef .tc main_v33) : Feat Ideal)
    = Cert.Sage.feat1 (F := Ideal) (aE m c) (aX m c) (aWl m c) (aWr m c) (aB m c) :=
  (W8_of_ne m ρ c main_v33 (by decide)).trans
    ((StableHlo.after_of_writes_sub hostOps2 (W6 m ρ c) hostOps2_writes (by decide : main_v33 ∉ hostOps2_W)).trans
      ((W6_keep m ρ c 1 rfl).trans
        ((StableHlo.after_of_writes_sub hostOps1 (W4 m ρ c) hostOps1_writes (by decide : main_v33 ∉ hostOps1_W)).trans (W4_feat1 m ρ c))))
theorem W8_feat2 (c : Dev nD) : (W8 m ρ c (Proc.devRef .tc main_v53) : Feat Ideal)
    = Cert.Sage.feat2 (F := Ideal) (aE m c) (aX m c) (aWl m c) (aWr m c) (aB m c) :=
  (W8_keep m ρ c 1 rfl).trans
    ((StableHlo.after_of_writes_sub hostOps2 (W6 m ρ c) hostOps2_writes (by decide : main_v53 ∉ hostOps2_W)).trans (W6_feat2 m ρ c))

/-- The last operation: the three arrays side by side. -/
theorem W9_concat (c : Dev nD) : (W9 m ρ c (Proc.devRef .tc main_v74) : (⟨S50000x768, .f32⟩ : BufTy).Contents (Elt Ideal))
    = concatenate S50000x768 1 [⟨S50000x256, W8 m ρ c (Proc.devRef .tc main_v33)⟩, ⟨S50000x256, W8 m ρ c (Proc.devRef .tc main_v53)⟩,
        ⟨S50000x256, W8 m ρ c (Proc.devRef .tc main_v73)⟩] Gen.concatenates_S50000x256_S50000x256_S50000x256_S50000x768_d1 := by
  dsimp only [W9, hostOps3]
  simp only [after_cons, after_nil]
  rw [nary_result]
  rfl

/-- THE RESULT ARRAY at the end: the specification's result of the arguments. -/
theorem W9_result (c : Dev nD) : (W9 m ρ c (Proc.devRef .tc main_v74) : (⟨S50000x768, .f32⟩ : BufTy).Contents (Elt Ideal))
    = Cert.Sage.result (F := Ideal) (aE m c) (aX m c) (aWl m c) (aWr m c) (aB m c) := by
  rw [W9_concat, W8_feat1, W8_feat2, W8_feat3]
  rfl

/-- THE KERNEL PROGRAM'S RUN, READ: every weakly fair execution terminates, nothing faulting, with the result array at
    the specification's result of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v74) = Cert.Sage.result (F := Ideal) (aE m c) (aX m c) (aWl m c) (aWr m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c => ⟨(h c).1.trans (W9_result m ρ c), (h c).2⟩) (run_result (F := Ideal) m ρ)

end Cert.KernelIdeal.RunValue

end
-- ==== Proof.RefSide.lean ====
/-
  The reference program's run, read against the specification.

  The host program's result array ends at the composed term of its 112 operations applied to the launch contents of its
  five arguments.  That term is the specification's `result` of the arguments: the specification is written in the
  host program's own spelling, operation for operation, so the two agree by unfolding the specification's definitions.
-/
import proofs.«151666_j82042465288656_1_alg».proof.Proof.RefRun
import proofs.«151666_j82042465288656_1_alg».proof.Proof.Spec
import Idealize.ShloMosaic.PureOps.Ideal

noncomputable section

namespace Cert.RefSide

open Idealize.ShloMosaic Idealize.ShloMosaic.TcCoe Idealize.SL.Sem
open Cert.ReferenceIdeal Cert.ReferenceIdeal.Gen

set_option maxRecDepth 8192 in
set_option maxHeartbeats 4000000 in
/-- The host program's composed result term is the specification's result of the five arguments. -/
theorem result_eq (m : (ℓ : Loc nD τ sig) → Buf (Elt Ideal) ℓ) (c : Dev nD) :
    Cert.ReferenceIdeal.ValueP.res_main_v91 (F := Ideal) m c
      = Cert.Sage.result (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Cert.ReferenceIdeal.ValueP.res_main_v91
  rfl

/-- THE REFERENCE'S RUN: every weakly fair execution terminates, nothing faulting, with the result array at the
    specification's result of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v91)
        = Cert.Sage.result (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c).1.trans (result_eq m c), (h c).2⟩)
    (Cert.ReferenceIdeal.ValueP.run (F := Ideal) m ρ)

end Cert.RefSide

end
-- ==== Proof.lean ====
/-
  Three layers of mean-aggregation graph convolution on 50000 nodes and 800000 edges, computed two ways.

  Both programs count every node's in-degree once, and for each of three layers gather the sources' features along the
  edges, sum them at the targets, scale by the reciprocal in-degree (0 for an isolated target) and map features x and
  aggregate a to (a · Wl + x · Wr) + b + x, clamped at zero in the first two layers; the three layers' outputs are put
  side by side.  The kernel program computes the dense part of each layer block by block, 2000 rows at a time, with the
  products' operands narrowed to bfloat16; the reference computes it with whole-array host operations.  Over the
  extended reals the narrowing is the identity and a product's entry is the sum over the contracted axis on both sides,
  and the two programs group their sums alike, so they agree entry by entry with no law of arithmetic, hence also where an
  intermediate value is infinite; the gather, the scatter-add and the reciprocal are the same host operations in both.

  The frames: each kernel program is run as nine segments — host stretches and the three regions — with the buffers'
  contents followed through as a fold (Proof/KI/Run.lean, Proof/K/Run.lean), the body of each region run once at a
  symbolic grid point (Proof/KI/Region0.lean …); the reference's run is its list of host operations (Proof/RefRun.lean).
  The values: a region's result array is the layer of the arrays it finds (Proof/KI/Final0.lean …, over the layer read at
  an entry, Proof/Layer.lean); stretch by stretch the kernel program's buffers are the specification's terms
  (Proof/KI/Value.lean); the reference's composed term is the specification by unfolding (Proof/RefSide.lean); the
  specification is Proof/Spec.lean.  The idealization rewrote nothing, so what it must preserve is trivially preserved.
-/
import proofs.«151666_j82042465288656_1_alg».proof.Defs
import proofs.«151666_j82042465288656_1_alg».proof.Proof.Gen.Kernel
import proofs.«151666_j82042465288656_1_alg».proof.Proof.Gen.KernelIdeal
import proofs.«151666_j82042465288656_1_alg».proof.Proof.Gen.ReferenceIdeal
import proofs.«151666_j82042465288656_1_alg».proof.Proof.Gen.Pre_finite_inputs
import proofs.«151666_j82042465288656_1_alg».proof.Proof.K.Args
import proofs.«151666_j82042465288656_1_alg».proof.Proof.KI.Args
import proofs.«151666_j82042465288656_1_alg».proof.Proof.KI.Value
import proofs.«151666_j82042465288656_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs to the end, nothing faulting, its arguments unchanged. -/
theorem frame_kernel : Cert.frame_Kernel := fun m ρ _ => Cert.Kernel.Run.frame (F := Bits) m ρ

/-- So does its reading over the extended reals. -/
theorem frame_kernelIdeal : Cert.frame_KernelIdeal := fun m ρ _ => Cert.KernelIdeal.Run.frame (F := Ideal) m ρ

/-- And the reference: its run with the result dropped. -/
theorem frame_referenceIdeal : Cert.frame_ReferenceIdeal := fun m ρ _ =>
  (θ_run (Cert.ReferenceIdeal.defs (F := Ideal)) _ _).mono (fun _ h c => (h c).2) (Cert.RefSide.run m ρ)

/-- The idealization rewrote no operation. -/
theorem preserves : Cert.preserves_Kernel_KernelIdeal := trivial

/-- From memories agreeing on the five arguments both programs end with the specification's result of those arguments. -/
theorem algebraic : Cert.algebraic_KernelIdeal_ReferenceIdeal := by
  intro m ρ m' ρ' _ hagree
  refine ⟨fun c => Cert.Sage.result (F := Ideal) (Cert.KernelIdeal.RunValue.aE m c) (Cert.KernelIdeal.RunValue.aX m c)
    (Cert.KernelIdeal.RunValue.aWl m c) (Cert.KernelIdeal.RunValue.aWr m c) (Cert.KernelIdeal.RunValue.aB m c),
    Cert.KernelIdeal.RunValue.run m ρ, ?_⟩
  refine (θ_run (Cert.ReferenceIdeal.defs (F := Ideal)) _ _).mono (fun _ h c => ⟨(h c).1.trans ?_, (h c).2⟩) (Cert.RefSide.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
